-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S8192x128 .f32 := Host.absf main_arg2
  let main_cst_2 : FVec F S_ .f32 := constant S_ .f32 0x7F800000#32
  let main_v10 : FVec F S8192x128 .f32 := broadcastInDim S8192x128 ![] bcast_S_S8192x128 main_cst_2
  let main_v11 : IVec S8192x128 1 := cmpf .olt main_v9 main_v10
  let main_c_3 : IVec S_ 1 := constantI S_ 1 1#1
  let main_v12 : IVec S_ 1 := (fun x v => Host.reduce IntOp.andi x v reducesTo_S8192x128_S_d0_1 h_S_) main_v11 main_c_3
  let main_v13 : IVec S_ 1 := andi main_v8 main_v12
  main_v13
-- ==== Kernel.lean ====
abbrev S8192x128 : Shape := ⟨2, ![8192, 128]⟩
abbrev S1x8192 : Shape := ⟨2, ![1, 8192]⟩
abbrev S8192x8192 : Shape := ⟨2, ![8192, 8192]⟩
abbrev S1024x128 : Shape := ⟨2, ![1024, 128]⟩
abbrev S1x1024 : Shape := ⟨2, ![1, 1024]⟩
abbrev S1024x1024 : Shape := ⟨2, ![1024, 1024]⟩
abbrev S1024x1 : Shape := ⟨2, ![1024, 1]⟩
abbrev S128x1024 : Shape := ⟨2, ![128, 1024]⟩
abbrev S1024 : Shape := ⟨1, ![1024]⟩

abbrev nBuf : Space → Nat
  | .hbm => 9
  | .vmem => 19
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S8192x128, .bf16⟩
  | .hbm, ⟨4, _⟩ => ⟨S8192x128, .bf16⟩
  | .hbm, ⟨5, _⟩ => ⟨S8192x128, .bf16⟩
  | .hbm, ⟨6, _⟩ => ⟨S1x8192, .f32⟩
  | .hbm, ⟨7, _⟩ => ⟨S8192x8192, .bf16⟩
  | .hbm, ⟨8, _⟩ => ⟨S8192x128, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1, .f32⟩
  | .local _ .vmem, ⟨9, _⟩ => ⟨S1024x1, .f32⟩
  | .local _ .vmem, ⟨10, _⟩ => ⟨S1024x1024, .bf16⟩
  | .local _ .vmem, ⟨11, _⟩ => ⟨S1024x1024, .bf16⟩
  | .local _ .vmem, ⟨12, _⟩ => ⟨S1024x128, .bf16⟩
  | .local _ .vmem, ⟨13, _⟩ => ⟨S1024x128, .bf16⟩
  | .local _ .vmem, ⟨14, _⟩ => ⟨S1x1024, .f32⟩
  | .local _ .vmem, ⟨15, _⟩ => ⟨S1x1024, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v33 : BitVec 1 := Scalar.cmpi .eq arg1 c7_i32
  let v34 : BitVec 32 := Scalar.extui v33
  let c0_i32_18 : BitVec 32 := 0#32
  let v35 : BitVec 1 := Scalar.cmpi .ne v34 c0_i32_18
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_10 : BitVec 32 := 0#32
  let v22 : BitVec 1 := Scalar.cmpi .ne v21 c0_i32_10
  v22

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  reduces_S1024x1024_S1024 : S1024x1024.Reduces [1] S1024
  shapeCasts_S1024_S1024x1 : S1024.ShapeCasts S1024x1
  broadcasts_S1024x1_S1024x1024 : S1024x1.Broadcasts S1024x1024
  transposes_S1024x1024_p1_0_S1024x1024 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  transposes_S1024x1_p1_0_S1x1024 : S1024x1.Transposes [1, 0] S1x1024
  inb_S1x1024_S1x1024_0_0 : ∀ a, (![0, 0] : Fin 2 → Nat) a + S1x1024.size a ≤ S1x1024.size a
  h_S1x1024 : 0 < S1x1024.numel
  shapeCasts_S1024x1024_S1024x1024 : S1024x1024.ShapeCasts S1024x1024
  shapeCasts_S1x1024_S1x1024 : S1x1024.ShapeCasts S1x1024
  broadcasts_S1x1024_S1024x1024 : S1x1024.Broadcasts S1024x1024
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .bf16 = 32 ∨ (Rect.block (s := S8192x8192) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .f32 = 32 ∨ (Rect.block (s := S1x8192) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S8192x128.size a
  hwx1_3 : ∀ i : grid1.Coords, EltTy.bits .f32 = 32 ∨ (Rect.block (s := S8192x128) S1024x128.size (cc1_transform_3 i) (hinb1_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

abbrev win1_0 : Pipeline.Window sig grid1 :=
  Pipeline.Window.ofSpec (Memref.whole main_v3_1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S128x8192 : Shape := ⟨2, ![128, 8192]⟩
abbrev S8192x8192 : Shape := ⟨2, ![8192, 8192]⟩
abbrev S_ : Shape := ⟨0, ![]⟩
abbrev S8192 : Shape := ⟨1, ![8192]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S128x8192, .f32⟩
  | .hbm, ⟨4, _⟩ => ⟨S8192x8192, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S8192x128_S128x8192_1_0 : S8192x128.Transposes [1, 0] S128x8192
  reducesTo_S8192x8192_S8192_d0 : S8192x8192.ReducesTo [0] S8192
  h_S_ : 0 < S_.numel
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.K.R0Base.lean ====
/-
  The statistics pass (the first of the two kernel regions): where its two branches are taken over the 8 × 8 grid, at
  which points each window is idle or written back, and the buffers its body runs on.

  The grid's inner axis walks the eight query tiles of one key tile. The first branch (re-initialising the running
  maximum and the running total) is taken at the first query tile, the second (writing the key tile's log-sum-exp)
  at the last; in between neither is.
-/
import proofs.«107496_j36386962931993_2_alg».proof.Proof.Gen.Kernel.Launch
import proofs.«107496_j36386962931993_2_alg».proof.Proof.Gen.Kernel.Skeleton
import proofs.«107496_j36386962931993_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch's condition: the query-tile coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition: the query-tile coordinate is seven. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Where the second branch is not taken nothing is stored into the log-sum-exp window, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The buffers the body runs on -/

/-- One staging buffer of each output window, through which its contents are stated. -/
abbrev VO0_2 : View sig .tc .vmem S1x1024 .f32 := (Memref.whole cc0_stg2_0 : Memref sig .tc .vmem S1x1024 .f32).view
abbrev VO0_3 : View sig .tc .vmem S1024x1024 .bf16 := (Memref.whole cc0_stg3_0 : Memref sig .tc .vmem S1024x1024 .bf16).view
/-- Each window's current staging memref at point `t`, and its wholeness. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The running maximum and the running total: whole scoped buffers of the kernel's own. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The scoped buffers the region holds that are neither a staging buffer of its windows nor the running pair: the
    other region's staging buffers and accumulator, each at some contents. They ride through every point untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant before its first point: the running pair at anything, the other scoped buffers at anything,
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.Kernel.Hand

end
-- ==== Proof.K.R0RunB.lean ====
/-
  The statistics pass at a middle query tile (neither branch taken): the body run once on whole buffers.

  It loads the key tile and the query tile, the running maximum and the running total, stores the new total, the new
  maximum and the transposed score tile; the log-sum-exp window is left as it was found.
-/
import proofs.«107496_j36386962931993_2_alg».proof.Proof.K.R0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the score-cache window and in the running pair at a middle query tile, with
    the proof that from whole buffers — the two input tiles at `x0`, `x1`, the running pair at `xs0`, `xs1`, the
    log-sum-exp window at `xi2` handed back untouched — the body runs to the continuation. -/
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) :
    Σ' (L3 : List (View.Piece (Elt F) S1024x1024 .bf16)) (LS0 : List (View.Piece (Elt F) S1024x1 .f32)), { LS1 : List (View.Piece (Elt F) S1024x1 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.K.R0RunA.lean ====
/-
  The statistics pass at the first query tile of a key tile (the first branch taken, the second not): the body run
  once on whole buffers.

  It first overwrites the running maximum with −∞ and the running total with zero, whatever they held, then proceeds as
  at a middle tile; the log-sum-exp window is left as it was found.
-/
import proofs.«107496_j36386962931993_2_alg».proof.Proof.K.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the score-cache window and in the running pair at the first query tile, with
    the proof that from whole buffers — the two input tiles at `x0`, `x1`, the running pair at anything, the
    log-sum-exp window at `xi2` handed back untouched — the body runs to the continuation. -/
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) :
    Σ' (L3 : List (View.Piece (Elt F) S1024x1024 .bf16)) (LS0 : List (View.Piece (Elt F) S1024x1 .f32)), { LS1 : List (View.Piece (Elt F) S1024x1 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.K.R0RunC.lean ====
/-
  The statistics pass at the last query tile of a key tile (the second branch taken, the first not): the body run once
  on whole buffers.

  It proceeds as at a middle tile and then stores, into the log-sum-exp window, the transposed column of the final
  maximum plus the logarithm of the final total.
-/
import proofs.«107496_j36386962931993_2_alg».proof.Proof.K.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the log-sum-exp window, the score-cache window and the running pair at the
    last query tile, with the proof that from whole buffers — the two input tiles at `x0`, `x1`, the running pair at
    `xs0`, `xs1`, the output windows at anything — the body runs to the continuation. -/
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) :
    Σ' (L2 : List (View.Piece (Elt F) S1x1024 .f32)) (L3 : List (View.Piece (Elt F) S1024x1024 .bf16)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.Kernel.Hand

end
-- ==== Proof.K.R0Frame.lean ====
/-
  The statistics pass over its whole grid: what each point leaves in the log-sum-exp window, the score-cache window and
  the running pair, by recursion on the point; the invariant that carries the running pair from a point to the next;
  the proof data of the pipeline; and the body obligation at every point.

  A key tile's eight points form a chain: the first starts the running pair afresh, each later one continues from what
  the point before left, and the last also produces the key tile's log-sum-exp. Nothing passes from one key tile to
  the next.
-/
import proofs.«107496_j36386962931993_2_alg».proof.Proof.K.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the unscoped buffers when the region is entered: a parameter, fixed where @main is assembled
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The key-tile window's staging buffer holds its block at every point (it is fetched only when the key tile changes,
    and in between its index does not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The query-tile window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its stores read back, and that they cover the buffer -/

theorem cover0_A_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) (y : S1024x1024.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1024x1024.size (by sl_kernel_rfl) y
def out0_A_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) : Vec F S1024x1024 .bf16 :=
  VO0_3.read (Elt F) (VO0_3.writes (Elt F) VO0_3.junk (kernelRun0_A c i arg2 harg2 arg3 harg3 arg4 harg4 arg5 harg5 arg6 harg6 arg7 harg7 hc0 hc1 x0 x1).1)
theorem scover0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) (y : S1024x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1024x1.size (by sl_kernel_rfl) y
def sout0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1).2.1)
theorem scover0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) (y : S1024x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S1024x1.size (by sl_kernel_rfl) y
def sout0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1).2.2.1)
theorem cover0_B_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) (y : S1024x1024.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S1024x1024.size (by sl_kernel_rfl) y
def out0_B_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) : Vec F S1024x1024 .bf16 :=
  VO0_3.read (Elt F) (VO0_3.writes (Elt F) VO0_3.junk (kernelRun0_B c i arg2 harg2 arg3 harg3 arg4 harg4 arg5 harg5 arg6 harg6 arg7 harg7 hc0 hc1 x0 x1 xs0 xs1).1)
theorem scover0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) (y : S1024x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1024x1.size (by sl_kernel_rfl) y
def sout0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.1)
theorem scover0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) (y : S1024x1.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S1024x1.size (by sl_kernel_rfl) y
def sout0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.1)
theorem cover0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) (y : S1x1024.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x1024.size (by sl_kernel_rfl) y
def out0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) : Vec F S1x1024 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
theorem cover0_C_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) (y : S1024x1024.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1024x1024.size (by sl_kernel_rfl) y
def out0_C_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) : Vec F S1024x1024 .bf16 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
theorem scover0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) (y : S1024x1.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S1024x1.size (by sl_kernel_rfl) y
def sout0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
theorem scover0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) (y : S1024x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1024x1.size (by sl_kernel_rfl) y
def sout0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## What the buffers hold after each point -/

/-- After a point: the log-sum-exp window's staging buffer, the score-cache window's, the running maximum, the running total. -/
abbrev Out0 (F : FTy → Type) : Type := Vec F S1x1024 .f32 × Vec F S1024x1024 .bf16 × Vec F S1024x1 .f32 × Vec F S1024x1 .f32

/-- A point at which a key tile starts (the log-sum-exp window is not stored: a placeholder stands for it). -/
def at0_A (c : Dev nD) (t : Fin cfg0.N) (hc0 : cond0_0 (grid0.coords t)) (hc1 : ¬cond0_1 (grid0.coords t)) : Out0 F :=
  (VO0_2.read (Elt F) VO0_2.junk,
   out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t),
   sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t))

/-- A middle point, continuing from the running pair `p`. -/
def at0_B (c : Dev nD) (t : Fin cfg0.N) (hc0 : ¬cond0_0 (grid0.coords t)) (hc1 : ¬cond0_1 (grid0.coords t)) (p : Vec F S1024x1 .f32 × Vec F S1024x1 .f32) : Out0 F :=
  (VO0_2.read (Elt F) VO0_2.junk,
   out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2,
   sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2,
   sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2)

/-- The point at which a key tile ends, continuing from the running pair `p`. -/
def at0_C (c : Dev nD) (t : Fin cfg0.N) (hc0 : ¬cond0_0 (grid0.coords t)) (hc1 : cond0_1 (grid0.coords t)) (p : Vec F S1024x1 .f32 × Vec F S1024x1 .f32) : Out0 F :=
  (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2,
   out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2,
   sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2,
   sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2)

/-- THE CHAIN. What the buffers hold after the body at position `n`: the case the position's residue modulo 8 selects,
    a continuing case from the running pair the position before left. -/
def outsAt0 (c : Dev nD) : (n : ℕ) → n < cfg0.N → Out0 F
  | 0, hn => at0_A V c ⟨0, hn⟩ ((hcond0_0 ⟨0, hn⟩).mpr (Nat.zero_mod _)) (fun h => by have := (hcond0_1 ⟨0, hn⟩).mp h; simp at this)
  | n + 1, hn =>
    if h0 : (n + 1) % 8 = 0 then
      at0_A V c ⟨n + 1, hn⟩ ((hcond0_0 ⟨n + 1, hn⟩).mpr h0) (fun h => by have := (hcond0_1 ⟨n + 1, hn⟩).mp h; dsimp only at this; omega)
    else if h1 : (n + 1) % 8 = 7 then
      at0_C V c ⟨n + 1, hn⟩ (fun h => h0 ((hcond0_0 ⟨n + 1, hn⟩).mp h)) ((hcond0_1 ⟨n + 1, hn⟩).mpr h1) (outsAt0 c n (Nat.lt_of_succ_lt hn)).2.2
    else
      at0_B V c ⟨n + 1, hn⟩ (fun h => h0 ((hcond0_0 ⟨n + 1, hn⟩).mp h)) (fun h => h1 ((hcond0_1 ⟨n + 1, hn⟩).mp h)) (outsAt0 c n (Nat.lt_of_succ_lt hn)).2.2

theorem outsAt0_A (c : Dev nD) (t : Fin cfg0.N) (h0 : t.val % 8 = 0) (hc0 : cond0_0 (grid0.coords t)) (hc1 : ¬cond0_1 (grid0.coords t)) :
    outsAt0 V c t.val t.isLt = at0_A V c t hc0 hc1 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) (hc0 : ¬cond0_0 (grid0.coords t)) (hc1 : ¬cond0_1 (grid0.coords t)) :
    outsAt0 V c t.val t.isLt = at0_B V c t hc0 hc1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) (hc0 : ¬cond0_0 (grid0.coords t)) (hc1 : cond0_1 (grid0.coords t)) :
    outsAt0 V c t.val t.isLt = at0_C V c t hc0 hc1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- Before position `n`: at the region's entry the running pair is at anything; afterwards it is at what the position
    before left. The other scoped buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ others0 c) ∗ (∃ r, prngReg c r)) := by
  cases n with
  | zero => exact absurd rfl hz
  | succ n => rfl

/-! ## The pipeline's proof data -/

/-- The proof data of the statistics pass on core `c`: the arrays as the region finds them; after the body at a point
    each input's buffer at its block and each output's at the chain's component; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Hand

end
-- ==== Proof.K.R0Body.lean ====
/-
  The statistics pass: the body obligation at every point, and the invariant at the region's two ends.

  At each point the invariant hands the body the running pair (at the region's entry: at anything), the case the
  point's residue selects applies, and the invariant takes the running pair back at that point's contents.
-/
import proofs.«107496_j36386962931993_2_alg».proof.Proof.K.R0Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 3 t = owns (c : Thread nD τ) (ms0_3 t) fullShare ((dat0 V c).after 3 t) from by
    unfold Dat.leavesExact; rw [liveAt0_3 t], after0_3]
  have hN : t.val < 64 := lt_of_lt_of_eq t.isLt (show cfg0.N = 64 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [outsAt0_A V c t h0 hc0 hc1]
    unfold at0_A sout0_A_0 sout0_A_1 out0_A_3; dsimp only
    by_cases hz : t.val = 0
    ·
      rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _ _ _)
    ·
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      iintro ⟨H0, H1, H2, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _ _ _)
  · have hz : t.val ≠ 0 := fun h => h0 (by rw [h])
    have hc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t h0 h1 hc0 hc1]
      unfold at0_C sout0_C_0 sout0_C_1 out0_C_3 out0_C_2; dsimp only
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · have hc1 : ¬cond0_1 (grid0.coords t) := fun h => h1 ((hcond0_1 t).mp h)
      rw [Dat.leavesExact_idle (dat0 V c) 2 t (idleAt0_2 t hc1) (noFlush0_2 t hc1)]
      rw [outsAt0_B V c t h0 h1 hc0 hc1]
      unfold at0_B sout0_B_0 sout0_B_1 out0_B_3; dsimp only
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) _ _).2.2.2 _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_B_3 c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the entry form back: the running pair's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hoth⟩, Hg⟩
  isplitr [Hg]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand

end
-- ==== Proof.K.R1Base.lean ====
/-
  The output pass (the second of the two kernel regions): where its two branches are taken over the 8 × 8 grid, at
  which points its output window is idle or written back, and the buffers its body runs on.

  The grid's inner axis walks the eight key tiles of one query tile. The first branch (setting the accumulator to
  zero) is taken at the first key tile, the second (copying the accumulator into the output block) at the last; in
  between neither is. At every point the accumulator gains exp(S − lse) · V of the point's key tile.
-/
import proofs.«107496_j36386962931993_2_alg».proof.Proof.Gen.Kernel.Launch
import proofs.«107496_j36386962931993_2_alg».proof.Proof.Gen.Kernel.Skeleton
import proofs.«107496_j36386962931993_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch's condition: the key-tile coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition: the key-tile coordinate is seven. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs (the score block, the value block, the log-sum-exp block) are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first key tile nothing is stored into the output block, and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- Nor at the key tiles strictly between the first and the last. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last key tile the output block is stored. -/
theorem liveAt1_3_C : ∀ t : Fin cfg1.N, ¬cond1_0 (grid1.coords t) → cond1_1 (grid1.coords t) → cfg1.idle 3 (grid1.coords t) = false := by decide +kernel

/-! ## The buffers the body runs on -/

/-- One staging buffer of the output window, through which its contents are stated. -/
abbrev VO1_3 : View sig .tc .vmem S1024x128 .f32 := (Memref.whole cc1_stg3_0 : Memref sig .tc .vmem S1024x128 .f32).view
/-- Each window's current staging buffer at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a whole scoped buffer of the region's own, carried from key tile to key tile. -/
abbrev scM1_0 : Memref sig .tc .vmem S1024x128 .f32 := Memref.whole cc1_scratch0
abbrev VS1_0 : View sig .tc .vmem S1024x128 .f32 := scM1_0.view

/-- The scoped buffers the region holds that are neither a staging buffer of its windows nor the accumulator: the
    other region's staging buffers and running pair, each at some contents. They ride through every point untouched. -/
def others1 (c : Dev nD) : sProp 𝕄 :=
  Pipeline.scopedRestBut (Ix := Unit) (Name := ℕ) (U := UR sig nD τ) (Lvl := ℕ) (Val := Elt F) spec1 c [cc1_scratch0]

/-- The region's invariant before its first point: the accumulator at anything, the other scoped buffers at anything,
    the generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA others1
  rw [Pipeline.scopedRest_split_of_list spec1 c [cc1_scratch0] (by decide) (by decide)]
  simp only [scM1_0, owns_whole]; try rfl

end Cert.Kernel.Hand

end
-- ==== Proof.K.R1RunA.lean ====
/-
  The output pass at the first key tile of a row: the accumulator, whatever it held, is set to zero and then gains
  the tile's contribution; nothing is stored into the output block, which is handed back as it was found.
-/
import proofs.«107496_j36386962931993_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves in the output block's buffer (nothing) and in the accumulator (its stores, last first) at a
    point with the first branch taken and the second not, with the proof that from the three input blocks at
    `x0`, `x1`, `x2`, the output buffer at `xi3` and the accumulator at anything the body runs to the continuation
    holding the inputs and the output buffer as they were and the accumulator with those stores written. -/
noncomputable def kernelRun1_A (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .bf16) (x1 : Vec F S1024x128 .bf16) (x2 : Vec F S1x1024 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__out_kernel i arg2 harg2 arg3 harg3 arg4 harg4 arg5 harg5 arg6 harg6) K } := by
  refine ⟨[], ?_, fun xi3 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunB.lean ====
/-
  The output pass at a key tile strictly between the first and the last of a row: the accumulator gains the tile's
  contribution over what the tile before left; nothing is stored into the output block.
-/
import proofs.«107496_j36386962931993_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves in the output block's buffer (nothing) and in the accumulator (its store) at a point with
    neither branch taken, with the proof that from the three input blocks at `x0`, `x1`, `x2`, the output buffer at
    `xi3` and the accumulator at `xs0` the body runs to the continuation holding the inputs and the output buffer as
    they were and the accumulator with that store written. -/
noncomputable def kernelRun1_B (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .bf16) (x1 : Vec F S1024x128 .bf16) (x2 : Vec F S1x1024 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__out_kernel i arg2 harg2 arg3 harg3 arg4 harg4 arg5 harg5 arg6 harg6) K } := by
  refine ⟨[], ?_, fun xi3 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunC.lean ====
/-
  The output pass at the last key tile of a row: the accumulator gains the tile's contribution over what the tile
  before left, and the finished accumulator is copied into the output block.
-/
import proofs.«107496_j36386962931993_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves in the output block's buffer and in the accumulator (their stores, last first) at a point
    with the second branch taken and the first not, with the proof that from the three input blocks at `x0`, `x1`,
    `x2`, the output buffer at anything and the accumulator at `xs0` the body runs to the continuation holding the
    inputs as they were and the output buffer and the accumulator with those stores written. -/
noncomputable def kernelRun1_C (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__out_kernel i arg2 harg2 arg3 harg3 arg4 harg4 arg5 harg5 arg6 harg6) K } := by
  refine ⟨?_, ?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1Frame.lean ====
/-
  The output pass as a pipeline's proof data: what the accumulator and the output block's buffer hold after every
  point of the 8 × 8 grid, the invariant that carries the accumulator from key tile to key tile, and the proof that
  the region's body meets the pipeline's obligation at every point.

  Along a row (one query tile) the accumulator starts from zero at the first key tile and gains one tile's
  contribution per point; at the last key tile it is copied into the output block, which is then written back.
-/
import proofs.«107496_j36386962931993_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered: the parameter the region's proof data are stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block's buffer and in the accumulator -/

/-- What case A leaves in the output block's buffer: its stores read back (none: a placeholder nothing consults, the window being idle there). -/
def out1_A_3 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .bf16) (x1 : Vec F S1024x128 .bf16) (x2 : Vec F S1x1024 .f32) : Vec F S1024x128 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it. -/
theorem scover1_A_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .bf16) (x1 : Vec F S1024x128 .bf16) (x2 : Vec F S1x1024 .f32) (y : S1024x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x128.size (by sl_kernel_rfl) y

/-- What case A leaves in the accumulator: its stores read back. -/
def sout1_A_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .bf16) (x1 : Vec F S1024x128 .bf16) (x2 : Vec F S1x1024 .f32) : Vec F S1024x128 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output block's buffer: its stores read back (none: a placeholder nothing consults, the window being idle there). -/
def out1_B_3 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .bf16) (x1 : Vec F S1024x128 .bf16) (x2 : Vec F S1x1024 .f32) (xs0 : Vec F S1024x128 .f32) : Vec F S1024x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it. -/
theorem scover1_B_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .bf16) (x1 : Vec F S1024x128 .bf16) (x2 : Vec F S1x1024 .f32) (xs0 : Vec F S1024x128 .f32) (y : S1024x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x128.size (by sl_kernel_rfl) y

/-- What case B leaves in the accumulator: its stores read back. -/
def sout1_B_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .bf16) (x1 : Vec F S1024x128 .bf16) (x2 : Vec F S1x1024 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- At the last key tile the one store into the output block covers it. -/
theorem cover1_C_3 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) (y : S1024x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x128.size (by sl_kernel_rfl) y

/-- What case C leaves in the output block's buffer: its stores read back. -/
def out1_C_3 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) : Vec F S1024x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the accumulator cover it. -/
theorem scover1_C_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) (y : S1024x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x128.size (by sl_kernel_rfl) y

/-- What case C leaves in the accumulator: its stores read back. -/
def sout1_C_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output block's buffer and the accumulator hold after each point -/

/-- THE ACCUMULATION. After the body at position `n`: the output block's buffer and the accumulator, as the case the
    point is in leaves them from the point's input blocks and (but at the first key tile of a row) the accumulator the
    point before left. -/
def outsAt1 (c : Dev nD) : (n : ℕ) → n < cfg1.N → Vec F S1024x128 .f32 × Vec F S1024x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at the first key tile of a row. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a key tile strictly inside a row, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last key tile of a row, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the launch's (the accumulator at anything);
    afterwards the accumulator at what the point before left, the other scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The pipeline's proof data -/

/-- The proof data of the output pass on core `c`: the arrays as the region finds them; after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.Kernel.Hand

end
-- ==== Proof.K.R1Body.lean ====
/-
  The output pass meets the pipeline's obligation at every point: the three input buffers hold their blocks, the
  point's position in its row says which of the three cases runs, the invariant hands the body the accumulator at
  what the point before left (at anything before the very first point) and takes it back at this point's contents;
  the other scoped buffers, the generator register and the core's debts pass through untouched.
-/
import proofs.«107496_j36386962931993_2_alg».proof.Proof.K.R1Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ )
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ )
            iexact Hr
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _ )
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _ )
            iexact Hr
          iexact Hg
        isplitl [Ho]; · iexact Ho
        isplitl [H0]; · iexact H0
        isplitl [H1]; · iexact H1
        isplitl [H2]; · iexact H2
        iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand

end
-- ==== Proof.K.Main.lean ====
/-
  @main from the launch to the return: the three conversions of the arguments, the statistics pass, the output pass.

  The contents of the unscoped buffers are followed through the three items: after the conversions; after the
  statistics pass (its log-sum-exp and score-cache arrays at what the pipeline wrote back, every other buffer as
  before); after the output pass (its output array likewise). Every weakly fair execution terminates with every
  unscoped buffer at these last contents; no item writes an argument, so the arguments end as launched.
-/
import proofs.«107496_j36386962931993_2_alg».proof.Proof.K.R0Body
import proofs.«107496_j36386962931993_2_alg».proof.Proof.K.R1Body
import Idealize.ShloMosaic.Lib.Pipeline.Frame
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between items -/

/-- At launch. -/
abbrev W0 : Dev nD → Valuation τ sig (Elt F) := fun c b => m ((c : Dev nD), b)
/-- After the three conversions. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the statistics pass: its arrays at what the pipeline leaves, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the output pass. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The result buffer ends at what the output pass wrote back. -/
theorem W3_result (c : Dev nD) : W3 m c (Proc.devRef .tc main_v4) = (dat1 (V2 m) c).arrAt 3 cfg1.N :=
  W3_arr m c 3

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The three conversions allocate nothing. -/
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left at the contents
    after it. Its windows' arrays are split out of the unscoped buffers and put back at what the pipeline leaves; the
    generator register and the scoped buffers go into the region's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1 ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (hin0 (V1 m) c)
  hout c := by
    rw [Pipeline.ownSems0_none]
    have h1 : Pipeline.ΦA spec0 c ⊢ (iprop((∃ r, prngReg c r) ∗ emp ∗ Pipeline.scopedRest spec0 c) : sProp 𝕄) := by
      unfold Pipeline.ΦA
      iintro ⟨Hr, Hp⟩
      isplitl [Hp]; · iexact Hp
      isplitr; · iempintro
      iexact Hr
    exact (hout0 (V1 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its windows' arrays are split out of the unscoped buffers and put back at what the pipeline leaves; the
    generator register and the scoped buffers go into the region's invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄) ⊢ Pipeline.ΦA spec1 c := by
      unfold Pipeline.ΦA
      iintro ⟨Hp, -, Hr⟩
      isplitl [Hr]; · iexact Hr
      iexact Hp
    exact h1.trans (hin1 (V2 m) c)
  hout c := by
    rw [Pipeline.ownSems0_none]
    have h1 : Pipeline.ΦA spec1 c ⊢ (iprop((∃ r, prngReg c r) ∗ emp ∗ Pipeline.scopedRest spec1 c) : sProp 𝕄) := by
      unfold Pipeline.ΦA
      iintro ⟨Hr, Hp⟩
      isplitl [Hp]; · iexact Hp
      isplitr; · iempintro
      iexact Hr
    exact (hout1 (V2 m) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_noalloc (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every unscoped buffer ends at the last contents above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- THE RESULT: besides, the result buffer ends at what the output pass wrote back. -/
theorem run_result : θ_run defs (onTc (τ := τ) (main (F := F))) ⟨m, fun _ => 0, ρ⟩ (fun r => ∀ c : Dev nD,
      r.2.mem ((c.tc : Thread nD τ).loc main_v4) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v4 (by decide))).trans (W3_result m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.Kernel.Hand

end
-- ==== Proof.KI.R0Base.lean ====
/-
  The statistics pass (the first of the two kernel regions): where its two branches are taken over the 8 × 8 grid, at
  which points each window is idle or written back, and the buffers its body runs on.

  The grid's inner axis walks the eight query tiles of one key tile. The first branch (re-initialising the running
  maximum and the running total) is taken at the first query tile, the second (writing the key tile's log-sum-exp)
  at the last; in between neither is.
-/
import proofs.«107496_j36386962931993_2_alg».proof.Proof.Gen.KernelIdeal.Launch
import proofs.«107496_j36386962931993_2_alg».proof.Proof.Gen.KernelIdeal.Skeleton
import proofs.«107496_j36386962931993_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch's condition: the query-tile coordinate is zero. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition: the query-tile coordinate is seven. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_3 : ∀ t : Fin cfg0.N, cfg0.idle 3 (grid0.coords t) = false := by decide +kernel
/-- Where the second branch is not taken nothing is stored into the log-sum-exp window, and it is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The buffers the body runs on -/

/-- One staging buffer of each output window, through which its contents are stated. -/
abbrev VO0_2 : View sig .tc .vmem S1x1024 .f32 := (Memref.whole cc0_stg2_0 : Memref sig .tc .vmem S1x1024 .f32).view
abbrev VO0_3 : View sig .tc .vmem S1024x1024 .bf16 := (Memref.whole cc0_stg3_0 : Memref sig .tc .vmem S1024x1024 .bf16).view
/-- Each window's current staging memref at point `t`, and its wholeness. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The running maximum and the running total: whole scoped buffers of the kernel's own. -/
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The scoped buffers the region holds that are neither a staging buffer of its windows nor the running pair: the
    other region's staging buffers and accumulator, each at some contents. They ride through every point untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region's invariant before its first point: the running pair at anything, the other scoped buffers at anything,
    the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

end Cert.KernelIdeal.Hand

end
-- ==== Proof.KI.R0RunB.lean ====
/-
  The statistics pass at a middle query tile (neither branch taken): the body run once on whole buffers.

  It loads the key tile and the query tile, the running maximum and the running total, stores the new total, the new
  maximum and the transposed score tile; the log-sum-exp window is left as it was found.
-/
import proofs.«107496_j36386962931993_2_alg».proof.Proof.KI.R0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the score-cache window and in the running pair at a middle query tile, with
    the proof that from whole buffers — the two input tiles at `x0`, `x1`, the running pair at `xs0`, `xs1`, the
    log-sum-exp window at `xi2` handed back untouched — the body runs to the continuation. -/
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) :
    Σ' (L3 : List (View.Piece (Elt F) S1024x1024 .bf16)) (LS0 : List (View.Piece (Elt F) S1024x1 .f32)), { LS1 : List (View.Piece (Elt F) S1024x1 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KI.R0RunA.lean ====
/-
  The statistics pass at the first query tile of a key tile (the first branch taken, the second not): the body run
  once on whole buffers.

  It first overwrites the running maximum with −∞ and the running total with zero, whatever they held, then proceeds as
  at a middle tile; the log-sum-exp window is left as it was found.
-/
import proofs.«107496_j36386962931993_2_alg».proof.Proof.KI.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the score-cache window and in the running pair at the first query tile, with
    the proof that from whole buffers — the two input tiles at `x0`, `x1`, the running pair at anything, the
    log-sum-exp window at `xi2` handed back untouched — the body runs to the continuation. -/
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) :
    Σ' (L3 : List (View.Piece (Elt F) S1024x1024 .bf16)) (LS0 : List (View.Piece (Elt F) S1024x1 .f32)), { LS1 : List (View.Piece (Elt F) S1024x1 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KI.R0RunC.lean ====
/-
  The statistics pass at the last query tile of a key tile (the second branch taken, the first not): the body run once
  on whole buffers.

  It proceeds as at a middle tile and then stores, into the log-sum-exp window, the transposed column of the final
  maximum plus the logarithm of the final total.
-/
import proofs.«107496_j36386962931993_2_alg».proof.Proof.KI.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the log-sum-exp window, the score-cache window and the running pair at the
    last query tile, with the proof that from whole buffers — the two input tiles at `x0`, `x1`, the running pair at
    `xs0`, `xs1`, the output windows at anything — the body runs to the continuation. -/
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) :
    Σ' (L2 : List (View.Piece (Elt F) S1x1024 .f32)) (L3 : List (View.Piece (Elt F) S1024x1024 .bf16)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg2.eq_unread hf0; obtain rfl := harg3.eq_unread hf1
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    iexists _; iexact HS1

end Cert.KernelIdeal.Hand

end
-- ==== Proof.KI.R0Frame.lean ====
/-
  The statistics pass over its whole grid: what each point leaves in the log-sum-exp window, the score-cache window and
  the running pair, by recursion on the point; the invariant that carries the running pair from a point to the next;
  the proof data of the pipeline; and the body obligation at every point.

  A key tile's eight points form a chain: the first starts the running pair afresh, each later one continues from what
  the point before left, and the last also produces the key tile's log-sum-exp. Nothing passes from one key tile to
  the next.
-/
import proofs.«107496_j36386962931993_2_alg».proof.Proof.KI.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the unscoped buffers when the region is entered: a parameter, fixed where @main is assembled
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The key-tile window's staging buffer holds its block at every point (it is fetched only when the key tile changes,
    and in between its index does not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The query-tile window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves: its stores read back, and that they cover the buffer -/

theorem cover0_A_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) (y : S1024x1024.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S1024x1024.size (by sl_kernel_rfl) y
def out0_A_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) : Vec F S1024x1024 .bf16 :=
  VO0_3.read (Elt F) (VO0_3.writes (Elt F) VO0_3.junk (kernelRun0_A c i arg2 harg2 arg3 harg3 arg4 harg4 arg5 harg5 arg6 harg6 arg7 harg7 hc0 hc1 x0 x1).1)
theorem scover0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) (y : S1024x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S1024x1.size (by sl_kernel_rfl) y
def sout0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1).2.1)
theorem scover0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) (y : S1024x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S1024x1.size (by sl_kernel_rfl) y
def sout0_A_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) : Vec F S1024x1 .f32 :=
  VS0_1.read (Elt F) (VS0_1.writes (Elt F) VS0_1.junk (kernelRun0_A c i arg2 harg2 arg3 harg3 arg4 harg4 arg5 harg5 arg6 harg6 arg7 harg7 hc0 hc1 x0 x1).2.2.1)
theorem cover0_B_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) (y : S1024x1024.Idx) :
    ∃ pc ∈ (kernelRun0_B c i arg2 harg2 arg3 harg3 arg4 harg4 arg5 harg5 arg6 harg6 arg7 harg7 hc0 hc1 x0 x1 xs0 xs1).1, y ∈ pc.1.set :=
  View.cover_of_tiledL (kernelRun0_B c i arg2 harg2 arg3 harg3 arg4 harg4 arg5 harg5 arg6 harg6 arg7 harg7 hc0 hc1 x0 x1 xs0 xs1).1 S1024x1024.size (by sl_kernel_rfl) y
def out0_B_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) : Vec F S1024x1024 .bf16 :=
  VO0_3.read (Elt F) (VO0_3.writes (Elt F) VO0_3.junk (kernelRun0_B c i arg2 harg2 arg3 harg3 arg4 harg4 arg5 harg5 arg6 harg6 arg7 harg7 hc0 hc1 x0 x1 xs0 xs1).1)
theorem scover0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) (y : S1024x1.Idx) :
    ∃ pc ∈ (kernelRun0_B c i arg2 harg2 arg3 harg3 arg4 harg4 arg5 harg5 arg6 harg6 arg7 harg7 hc0 hc1 x0 x1 xs0 xs1).2.1, y ∈ pc.1.set :=
  View.cover_of_tiledL (kernelRun0_B c i arg2 harg2 arg3 harg3 arg4 harg4 arg5 harg5 arg6 harg6 arg7 harg7 hc0 hc1 x0 x1 xs0 xs1).2.1 S1024x1.size (by sl_kernel_rfl) y
def sout0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1).2.1)
theorem scover0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) (y : S1024x1.Idx) :
    ∃ pc ∈ (kernelRun0_B c i arg2 harg2 arg3 harg3 arg4 harg4 arg5 harg5 arg6 harg6 arg7 harg7 hc0 hc1 x0 x1 xs0 xs1).2.2.1, y ∈ pc.1.set :=
  View.cover_of_tiledL (kernelRun0_B c i arg2 harg2 arg3 harg3 arg4 harg4 arg5 harg5 arg6 harg6 arg7 harg7 hc0 hc1 x0 x1 xs0 xs1).2.2.1 S1024x1.size (by sl_kernel_rfl) y
def sout0_B_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1).2.2.1)
theorem cover0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) (y : S1x1024.Idx) :
    ∃ pc ∈ (kernelRun0_C c i arg2 harg2 arg3 harg3 arg4 harg4 arg5 harg5 arg6 harg6 arg7 harg7 hc0 hc1 x0 x1 xs0 xs1).1, y ∈ pc.1.set :=
  View.cover_of_tiledL (kernelRun0_C c i arg2 harg2 arg3 harg3 arg4 harg4 arg5 harg5 arg6 harg6 arg7 harg7 hc0 hc1 x0 x1 xs0 xs1).1 S1x1024.size (by sl_kernel_rfl) y
def out0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) : Vec F S1x1024 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1).1)
theorem cover0_C_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) (y : S1024x1024.Idx) :
    ∃ pc ∈ (kernelRun0_C c i arg2 harg2 arg3 harg3 arg4 harg4 arg5 harg5 arg6 harg6 arg7 harg7 hc0 hc1 x0 x1 xs0 xs1).2.1, y ∈ pc.1.set :=
  View.cover_of_tiledL (kernelRun0_C c i arg2 harg2 arg3 harg3 arg4 harg4 arg5 harg5 arg6 harg6 arg7 harg7 hc0 hc1 x0 x1 xs0 xs1).2.1 S1024x1024.size (by sl_kernel_rfl) y
def out0_C_3 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) : Vec F S1024x1024 .bf16 :=
  VO0_3.read (Elt F) (VO0_3.writes (Elt F) VO0_3.junk (kernelRun0_C c i arg2 harg2 arg3 harg3 arg4 harg4 arg5 harg5 arg6 harg6 arg7 harg7 hc0 hc1 x0 x1 xs0 xs1).2.1)
theorem scover0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) (y : S1024x1.Idx) :
    ∃ pc ∈ (kernelRun0_C c i arg2 harg2 arg3 harg3 arg4 harg4 arg5 harg5 arg6 harg6 arg7 harg7 hc0 hc1 x0 x1 xs0 xs1).2.2.1, y ∈ pc.1.set :=
  View.cover_of_tiledL (kernelRun0_C c i arg2 harg2 arg3 harg3 arg4 harg4 arg5 harg5 arg6 harg6 arg7 harg7 hc0 hc1 x0 x1 xs0 xs1).2.2.1 S1024x1.size (by sl_kernel_rfl) y
def sout0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1).2.2.1)
theorem scover0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) (y : S1024x1.Idx) :
    ∃ pc ∈ (kernelRun0_C c i arg2 harg2 arg3 harg3 arg4 harg4 arg5 harg5 arg6 harg6 arg7 harg7 hc0 hc1 x0 x1 xs0 xs1).2.2.2.1, y ∈ pc.1.set :=
  View.cover_of_tiledL (kernelRun0_C c i arg2 harg2 arg3 harg3 arg4 harg4 arg5 harg5 arg6 harg6 arg7 harg7 hc0 hc1 x0 x1 xs0 xs1).2.2.2.1 S1024x1.size (by sl_kernel_rfl) y
def sout0_C_1 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1).2.2.2.1)

/-! ## What the buffers hold after each point -/

/-- After a point: the log-sum-exp window's staging buffer, the score-cache window's, the running maximum, the running total. -/
abbrev Out0 (F : FTy → Type) : Type := Vec F S1x1024 .f32 × Vec F S1024x1024 .bf16 × Vec F S1024x1 .f32 × Vec F S1024x1 .f32

/-- A point at which a key tile starts (the log-sum-exp window is not stored: a placeholder stands for it). -/
def at0_A (c : Dev nD) (t : Fin cfg0.N) (hc0 : cond0_0 (grid0.coords t)) (hc1 : ¬cond0_1 (grid0.coords t)) : Out0 F :=
  (VO0_2.read (Elt F) VO0_2.junk,
   out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t),
   sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t),
   sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t))

/-- A middle point, continuing from the running pair `p`. -/
def at0_B (c : Dev nD) (t : Fin cfg0.N) (hc0 : ¬cond0_0 (grid0.coords t)) (hc1 : ¬cond0_1 (grid0.coords t)) (p : Vec F S1024x1 .f32 × Vec F S1024x1 .f32) : Out0 F :=
  (VO0_2.read (Elt F) VO0_2.junk,
   out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2,
   sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2,
   sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2)

/-- The point at which a key tile ends, continuing from the running pair `p`. -/
def at0_C (c : Dev nD) (t : Fin cfg0.N) (hc0 : ¬cond0_0 (grid0.coords t)) (hc1 : cond0_1 (grid0.coords t)) (p : Vec F S1024x1 .f32 × Vec F S1024x1 .f32) : Out0 F :=
  (out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2,
   out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2,
   sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2,
   sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) p.1 p.2)

/-- THE CHAIN. What the buffers hold after the body at position `n`: the case the position's residue modulo 8 selects,
    a continuing case from the running pair the position before left. -/
def outsAt0 (c : Dev nD) : (n : ℕ) → n < cfg0.N → Out0 F
  | 0, hn => at0_A V c ⟨0, hn⟩ ((hcond0_0 ⟨0, hn⟩).mpr (Nat.zero_mod _)) (fun h => by have := (hcond0_1 ⟨0, hn⟩).mp h; simp at this)
  | n + 1, hn =>
    if h0 : (n + 1) % 8 = 0 then
      at0_A V c ⟨n + 1, hn⟩ ((hcond0_0 ⟨n + 1, hn⟩).mpr h0) (fun h => by have := (hcond0_1 ⟨n + 1, hn⟩).mp h; dsimp only at this; omega)
    else if h1 : (n + 1) % 8 = 7 then
      at0_C V c ⟨n + 1, hn⟩ (fun h => h0 ((hcond0_0 ⟨n + 1, hn⟩).mp h)) ((hcond0_1 ⟨n + 1, hn⟩).mpr h1) (outsAt0 c n (Nat.lt_of_succ_lt hn)).2.2
    else
      at0_B V c ⟨n + 1, hn⟩ (fun h => h0 ((hcond0_0 ⟨n + 1, hn⟩).mp h)) (fun h => h1 ((hcond0_1 ⟨n + 1, hn⟩).mp h)) (outsAt0 c n (Nat.lt_of_succ_lt hn)).2.2

theorem outsAt0_A (c : Dev nD) (t : Fin cfg0.N) (h0 : t.val % 8 = 0) (hc0 : cond0_0 (grid0.coords t)) (hc1 : ¬cond0_1 (grid0.coords t)) :
    outsAt0 V c t.val t.isLt = at0_A V c t hc0 hc1 := by
  obtain ⟨n, hn⟩ := t
  cases n with
  | zero => rfl
  | succ n => exact (dif_pos h0).trans rfl

theorem outsAt0_B (c : Dev nD) (t : Fin cfg0.N) (h0 : ¬t.val % 8 = 0) (h1 : ¬t.val % 8 = 7) (hc0 : ¬cond0_0 (grid0.coords t)) (hc1 : ¬cond0_1 (grid0.coords t)) :
    outsAt0 V c t.val t.isLt = at0_B V c t hc0 hc1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 8 = 0) (h1 : t.val % 8 = 7) (hc0 : ¬cond0_0 (grid0.coords t)) (hc1 : cond0_1 (grid0.coords t)) :
    outsAt0 V c t.val t.isLt = at0_C V c t hc0 hc1 (outsAt0 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- Before position `n`: at the region's entry the running pair is at anything; afterwards it is at what the position
    before left. The other scoped buffers and the generator register ride along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ others0 c) ∗ (∃ r, prngReg c r)) := by
  cases n with
  | zero => exact absurd rfl hz
  | succ n => rfl

/-! ## The pipeline's proof data -/

/-- The proof data of the statistics pass on core `c`: the arrays as the region finds them; after the body at a point
    each input's buffer at its block and each output's at the chain's component; the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Hand

end
-- ==== Proof.KI.R0Body.lean ====
/-
  The statistics pass: the body obligation at every point, and the invariant at the region's two ends.

  At each point the invariant hands the body the running pair (at the region's entry: at anything), the case the
  point's residue selects applies, and the invariant takes the running pair back at that point's contents.
-/
import proofs.«107496_j36386962931993_2_alg».proof.Proof.KI.R0Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 3 t = owns (c : Thread nD τ) (ms0_3 t) fullShare ((dat0 V c).after 3 t) from by
    unfold Dat.leavesExact; rw [liveAt0_3 t], after0_3]
  have hN : t.val < 64 := lt_of_lt_of_eq t.isLt (show cfg0.N = 64 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 2 t (idleAt0_2 t hc1) (noFlush0_2 t hc1)]
    rw [outsAt0_A V c t h0 hc0 hc1]
    unfold at0_A sout0_A_0 sout0_A_1 out0_A_3; dsimp only
    by_cases hz : t.val = 0
    ·
      rw [PhiS0_castSucc V c t, PhiS0_zero V c _ _ hz, PhiA0_eq]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _ _ _)
    ·
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_A c (grid0.coords t) _ _ _ _ _ _ _ _ _ _ _ _ hc0 hc1 (iblk0 V c 0 t) (iblk0 V c 1 t)).2.2.2 _ Set.univ _)
      isplitl [H0]; · iexact H0
      isplitl [H1]; · iexact H1
      isplitl [H2]; · iexact H2
      isplitl [H3]; · iexists _; iexact H3
      isplitl [HS0]; · iexists _; iexact HS0
      isplitl [HS1]; · iexists _; iexact HS1
      iintro ⟨H0, H1, H2, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_A_0 c _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_A_3 c _ _ _ _ _ _ _ _ _ _ _ _ _ _ _ _ _)
  · have hz : t.val ≠ 0 := fun h => h0 (by rw [h])
    have hc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 2 t = owns (c : Thread nD τ) (ms0_2 t) fullShare ((dat0 V c).after 2 t) from by
        unfold Dat.leavesExact; rw [liveAt0_2 t hc1], after0_2]
      rw [outsAt0_C V c t h0 h1 hc0 hc1]
      unfold at0_C sout0_C_0 sout0_C_1 out0_C_3 out0_C_2; dsimp only
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_C_0 c _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _)
          iexact Hoth
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _)
    · have hc1 : ¬cond0_1 (grid0.coords t) := fun h => h1 ((hcond0_1 t).mp h)
      rw [Dat.leavesExact_idle (dat0 V c) 2 t (idleAt0_2 t hc1) (noFlush0_2 t hc1)]
      rw [outsAt0_B V c t h0 h1 hc0 hc1]
      unfold at0_B sout0_B_0 sout0_B_1 out0_B_3; dsimp only
      rw [PhiS0_castSucc V c t, PhiS0_pos V c _ _ hz]
      iintro ⟨⟨⟨HS0, HS1, Hoth⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 (iblk0 V c 0 t) (iblk0 V c 1 t) _ _).2.2.2 _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hoth Hg]
      · isplitr [Hg]
        · isplitl [HS0]
          · unfold owns; iexists _; isplitr
            swap; · iexact HS0
            ipureintro; exact View.read_writes_of_cover _ _ _ _ _ (scover0_B_0 c _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _)
          iexact Hoth
        iexact Hg
      isplitl [Ho]; · iexact Ho
      isplitl [H0]; · iexact H0
      isplitl [H1]; · iexact H1
      isplitl [H2]; · iexists _; iexact H2
      unfold owns; iexists _; isplitr
      swap; · iexact H3
      ipureintro; exact View.read_writes_of_cover _ _ _ _ _ (cover0_B_3 c _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the entry form back: the running pair's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hoth⟩, Hg⟩
  isplitr [Hg]
  · isplitl [HS0]; · iexists _; iexact HS0
    isplitl [HS1]; · iexists _; iexact HS1
    iexact Hoth
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand

end
-- ==== Proof.KI.R1Base.lean ====
/-
  The output pass (the second of the two kernel regions): where its two branches are taken over the 8 × 8 grid, at
  which points its output window is idle or written back, and the buffers its body runs on.

  The grid's inner axis walks the eight key tiles of one query tile. The first branch (setting the accumulator to
  zero) is taken at the first key tile, the second (copying the accumulator into the output block) at the last; in
  between neither is. At every point the accumulator gains exp(S − lse) · V of the point's key tile.
-/
import proofs.«107496_j36386962931993_2_alg».proof.Proof.Gen.KernelIdeal.Launch
import proofs.«107496_j36386962931993_2_alg».proof.Proof.Gen.KernelIdeal.Skeleton
import proofs.«107496_j36386962931993_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions over the grid -/

/-- The first branch's condition: the key-tile coordinate is zero. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second branch's condition: the key-tile coordinate is seven. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The three inputs (the score block, the value block, the log-sum-exp block) are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first key tile nothing is stored into the output block, and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- Nor at the key tiles strictly between the first and the last. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last key tile the output block is stored. -/
theorem liveAt1_3_C : ∀ t : Fin cfg1.N, ¬cond1_0 (grid1.coords t) → cond1_1 (grid1.coords t) → cfg1.idle 3 (grid1.coords t) = false := by decide +kernel

/-! ## The buffers the body runs on -/

/-- One staging buffer of the output window, through which its contents are stated. -/
abbrev VO1_3 : View sig .tc .vmem S1024x128 .f32 := (Memref.whole cc1_stg3_0 : Memref sig .tc .vmem S1024x128 .f32).view
/-- Each window's current staging buffer at point `t`, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The accumulator: a whole scoped buffer of the region's own, carried from key tile to key tile. -/
abbrev scM1_0 : Memref sig .tc .vmem S1024x128 .f32 := Memref.whole cc1_scratch0
abbrev VS1_0 : View sig .tc .vmem S1024x128 .f32 := scM1_0.view

/-- The scoped buffers the region holds that are neither a staging buffer of its windows nor the accumulator: the
    other region's staging buffers and running pair, each at some contents. They ride through every point untouched. -/
def others1 (c : Dev nD) : sProp 𝕄 :=
  Pipeline.scopedRestBut (Ix := Unit) (Name := ℕ) (U := UR sig nD τ) (Lvl := ℕ) (Val := Elt F) spec1 c [cc1_scratch0]

/-- The region's invariant before its first point: the accumulator at anything, the other scoped buffers at anything,
    the generator register at some state. -/
theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA others1
  rw [Pipeline.scopedRest_split_of_list spec1 c [cc1_scratch0] (by decide) (by decide)]
  simp only [scM1_0, owns_whole]; try rfl

end Cert.KernelIdeal.Hand

end
-- ==== Proof.KI.R1RunA.lean ====
/-
  The output pass at the first key tile of a row: the accumulator, whatever it held, is set to zero and then gains
  the tile's contribution; nothing is stored into the output block, which is handed back as it was found.
-/
import proofs.«107496_j36386962931993_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves in the output block's buffer (nothing) and in the accumulator (its stores, last first) at a
    point with the first branch taken and the second not, with the proof that from the three input blocks at
    `x0`, `x1`, `x2`, the output buffer at `xi3` and the accumulator at anything the body runs to the continuation
    holding the inputs and the output buffer as they were and the accumulator with those stores written. -/
noncomputable def kernelRun1_A (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .bf16) (x1 : Vec F S1024x128 .bf16) (x2 : Vec F S1x1024 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__out_kernel i arg2 harg2 arg3 harg3 arg4 harg4 arg5 harg5 arg6 harg6) K } := by
  refine ⟨[], ?_, fun xi3 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1RunB.lean ====
/-
  The output pass at a key tile strictly between the first and the last of a row: the accumulator gains the tile's
  contribution over what the tile before left; nothing is stored into the output block.
-/
import proofs.«107496_j36386962931993_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves in the output block's buffer (nothing) and in the accumulator (its store) at a point with
    neither branch taken, with the proof that from the three input blocks at `x0`, `x1`, `x2`, the output buffer at
    `xi3` and the accumulator at `xs0` the body runs to the continuation holding the inputs and the output buffer as
    they were and the accumulator with that store written. -/
noncomputable def kernelRun1_B (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .bf16) (x1 : Vec F S1024x128 .bf16) (x2 : Vec F S1x1024 .f32) (xs0 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__out_kernel i arg2 harg2 arg3 harg3 arg4 harg4 arg5 harg5 arg6 harg6) K } := by
  refine ⟨[], ?_, fun xi3 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1RunC.lean ====
/-
  The output pass at the last key tile of a row: the accumulator gains the tile's contribution over what the tile
  before left, and the finished accumulator is copied into the output block.
-/
import proofs.«107496_j36386962931993_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body leaves in the output block's buffer and in the accumulator (their stores, last first) at a point
    with the second branch taken and the first not, with the proof that from the three input blocks at `x0`, `x1`,
    `x2`, the output buffer at anything and the accumulator at `xs0` the body runs to the continuation holding the
    inputs as they were and the output buffer and the accumulator with those stores written. -/
noncomputable def kernelRun1_C (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__out_kernel i arg2 harg2 arg3 harg3 arg4 harg4 arg5 harg5 arg6 harg6) K } := by
  refine ⟨?_, ?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1Frame.lean ====
/-
  The output pass as a pipeline's proof data: what the accumulator and the output block's buffer hold after every
  point of the 8 × 8 grid, the invariant that carries the accumulator from key tile to key tile, and the proof that
  the region's body meets the pipeline's obligation at every point.

  Along a row (one query tile) the accumulator starts from zero at the first key tile and gains one tile's
  contribution per point; at the last key tile it is copied into the output block, which is then written back.
-/
import proofs.«107496_j36386962931993_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the core's buffer contents when the region is entered: the parameter the region's proof data are stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves in the output block's buffer and in the accumulator -/

/-- What case A leaves in the output block's buffer: its stores read back (none: a placeholder nothing consults, the window being idle there). -/
def out1_A_3 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .bf16) (x1 : Vec F S1024x128 .bf16) (x2 : Vec F S1x1024 .f32) : Vec F S1024x128 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator cover it. -/
theorem scover1_A_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .bf16) (x1 : Vec F S1024x128 .bf16) (x2 : Vec F S1x1024 .f32) (y : S1024x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x128.size (by sl_kernel_rfl) y

/-- What case A leaves in the accumulator: its stores read back. -/
def sout1_A_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .bf16) (x1 : Vec F S1024x128 .bf16) (x2 : Vec F S1x1024 .f32) : Vec F S1024x128 .f32 :=
  VS1_0.read (Elt F) (VS1_0.writes (Elt F) VS1_0.junk (kernelRun1_A c i arg2 harg2 arg3 harg3 arg4 harg4 arg5 harg5 arg6 harg6 hc0 hc1 x0 x1 x2).2.1)

/-- What case B leaves in the output block's buffer: its stores read back (none: a placeholder nothing consults, the window being idle there). -/
def out1_B_3 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .bf16) (x1 : Vec F S1024x128 .bf16) (x2 : Vec F S1x1024 .f32) (xs0 : Vec F S1024x128 .f32) : Vec F S1024x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's stores into the accumulator cover it. -/
theorem scover1_B_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .bf16) (x1 : Vec F S1024x128 .bf16) (x2 : Vec F S1x1024 .f32) (xs0 : Vec F S1024x128 .f32) (y : S1024x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x128.size (by sl_kernel_rfl) y

/-- What case B leaves in the accumulator: its stores read back. -/
def sout1_B_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .bf16) (x1 : Vec F S1024x128 .bf16) (x2 : Vec F S1x1024 .f32) (xs0 : Vec F S1024x128 .f32) : Vec F S1024x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- At the last key tile the one store into the output block covers it. -/
theorem cover1_C_3 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) (y : S1024x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x128.size (by sl_kernel_rfl) y

/-- What case C leaves in the output block's buffer: its stores read back. -/
def out1_C_3 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) : Vec F S1024x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's stores into the accumulator cover it. -/
theorem scover1_C_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) (y : S1024x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x128.size (by sl_kernel_rfl) y

/-- What case C leaves in the accumulator: its stores read back. -/
def sout1_C_0 (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) : Vec F S1024x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output block's buffer and the accumulator hold after each point -/

/-- THE ACCUMULATION. After the body at position `n`: the output block's buffer and the accumulator, as the case the
    point is in leaves them from the point's input blocks and (but at the first key tile of a row) the accumulator the
    point before left. -/
def outsAt1 (c : Dev nD) : (n : ℕ) → n < cfg1.N → Vec F S1024x128 .f32 × Vec F S1024x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      if h1 : (n + 1) % 8 = 7 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at the first key tile of a row. -/
theorem outsAt1_A (c : Dev nD) (t : Fin cfg1.N) (h0 : t.val % 8 = 0) (h1 : ¬t.val % 8 = 7) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a key tile strictly inside a row, over what the point before left. -/
theorem outsAt1_B (c : Dev nD) (t : Fin cfg1.N) (h0 : ¬t.val % 8 = 0) (h1 : ¬t.val % 8 = 7) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last key tile of a row, over what the point before left. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the launch's (the accumulator at anything);
    afterwards the accumulator at what the point before left, the other scoped buffers at anything, the generator
    register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-! ## The pipeline's proof data -/

/-- The proof data of the output pass on core `c`: the arrays as the region finds them; after the body at point `t`
    each input's buffer at its block and the output's at `outsAt1`'s first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Region1

end Cert.KernelIdeal.Hand

end
-- ==== Proof.KI.R1Body.lean ====
/-
  The output pass meets the pipeline's obligation at every point: the three input buffers hold their blocks, the
  point's position in its row says which of the three cases runs, the invariant hands the body the accumulator at
  what the point before left (at anything before the very first point) and takes it back at this point's contents;
  the other scoped buffers, the generator register and the core's debts pass through untouched.
-/
import proofs.«107496_j36386962931993_2_alg».proof.Proof.KI.R1Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ )
            iexact Hr
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ )
            iexact Hr
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _ )
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ )
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _ )
            iexact Hr
          iexact Hg
        isplitl [Ho]; · iexact Ho
        isplitl [H0]; · iexact H0
        isplitl [H1]; · iexact H1
        isplitl [H2]; · iexact H2
        iexists _; iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand

end
-- ==== Proof.KI.Main.lean ====
/-
  @main from the launch to the return: the three conversions of the arguments, the statistics pass, the output pass.

  The contents of the unscoped buffers are followed through the three items: after the conversions; after the
  statistics pass (its log-sum-exp and score-cache arrays at what the pipeline wrote back, every other buffer as
  before); after the output pass (its output array likewise). Every weakly fair execution terminates with every
  unscoped buffer at these last contents; no item writes an argument, so the arguments end as launched.
-/
import proofs.«107496_j36386962931993_2_alg».proof.Proof.KI.R0Body
import proofs.«107496_j36386962931993_2_alg».proof.Proof.KI.R1Body
import Idealize.ShloMosaic.Lib.Pipeline.Frame
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between items -/

/-- At launch. -/
abbrev W0 : Dev nD → Valuation τ sig (Elt F) := fun c b => m ((c : Dev nD), b)
/-- After the three conversions. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the statistics pass: its arrays at what the pipeline leaves, every other buffer as before. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the output pass. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ### The arguments end as launched -/

theorem W3_main_arg0 (c : Dev nD) : W3 m c (Proc.devRef .tc main_arg0) = m ((c : Thread nD τ).loc main_arg0) :=
  calc W3 m c (Proc.devRef .tc main_arg0)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg1 (c : Dev nD) : W3 m c (Proc.devRef .tc main_arg1) = m ((c : Thread nD τ).loc main_arg1) :=
  calc W3 m c (Proc.devRef .tc main_arg1)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The result buffer ends at what the output pass wrote back. -/
theorem W3_result (c : Dev nD) : W3 m c (Proc.devRef .tc main_v4) = (dat1 (V2 m) c).arrAt 3 cfg1.N :=
  W3_arr m c 3

/-! ## The proof data family and the thread state -/

abbrev adm : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The three conversions allocate nothing. -/
theorem hostOps0_noalloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- Region 0 over the thread state: entered from every unscoped buffer at the contents before it, left at the contents
    after it. Its windows' arrays are split out of the unscoped buffers and put back at what the pipeline leaves; the
    generator register and the scoped buffers go into the region's invariant and come back; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 0).pre c (fun _ => fullShare) (adm (F := F) 0).1 ∗ Pipeline.scopedRest spec0 c) : sProp 𝕄) ⊢ Pipeline.ΦA spec0 c := by
      unfold Pipeline.ΦA
      iintro ⟨Hp, -, Hr⟩
      isplitl [Hr]; · iexact Hr
      iexact Hp
    exact h1.trans (hin0 (V1 m) c)
  hout c := by
    rw [Pipeline.ownSems0_none]
    have h1 : Pipeline.ΦA spec0 c ⊢ (iprop((∃ r, prngReg c r) ∗ emp ∗ Pipeline.scopedRest spec0 c) : sProp 𝕄) := by
      unfold Pipeline.ΦA
      iintro ⟨Hr, Hp⟩
      isplitl [Hp]; · iexact Hp
      isplitr; · iempintro
      iexact Hr
    exact (hout0 (V1 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its windows' arrays are split out of the unscoped buffers and put back at what the pipeline leaves; the
    generator register and the scoped buffers go into the region's invariant and come back; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : (iprop((∃ r, prngReg c r) ∗ Pipeline.prefHeld (pcfgs (F := F) 1).pre c (fun _ => fullShare) (adm (F := F) 1).1 ∗ Pipeline.scopedRest spec1 c) : sProp 𝕄) ⊢ Pipeline.ΦA spec1 c := by
      unfold Pipeline.ΦA
      iintro ⟨Hp, -, Hr⟩
      isplitl [Hr]; · iexact Hr
      iexact Hp
    exact h1.trans (hin1 (V2 m) c)
  hout c := by
    rw [Pipeline.ownSems0_none]
    have h1 : Pipeline.ΦA spec1 c ⊢ (iprop((∃ r, prngReg c r) ∗ emp ∗ Pipeline.scopedRest spec1 c) : sProp 𝕄) := by
      unfold Pipeline.ΦA
      iintro ⟨Hr, Hp⟩
      isplitl [Hp]; · iexact Hp
      isplitr; · iempintro
      iexact Hr
    exact (hout1 (V2 m) c).trans h1
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_noalloc (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every unscoped buffer ends at the last contents above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

/-- THE RESULT: besides, the result buffer ends at what the output pass wrote back. -/
theorem run_result : θ_run defs (onTc (τ := τ) (main (F := F))) ⟨m, fun _ => 0, ρ⟩ (fun r => ∀ c : Dev nD,
      r.2.mem ((c.tc : Thread nD τ).loc main_v4) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v4 (by decide))).trans (W3_result m c),
     (h c _ (mem_uc main_arg0 (by decide))).trans (W3_main_arg0 m c),
     (h c _ (mem_uc main_arg1 (by decide))).trans (W3_main_arg1 m c),
     (h c _ (mem_uc main_arg2 (by decide))).trans (W3_main_arg2 m c)⟩) (run_all m ρ)

end Cert.KernelIdeal.Hand

end
-- ==== Proof.KI.R0Pieces.lean ====
/-
  What the statistics pass's stores leave at a grid point, as the body's arithmetic on the blocks it loaded.

  At the first query tile of a key tile the running maximum and total are first reset (to minus infinity and zero), so
  the update reads those constants; at a later tile it reads the pair the tile before left; at the last tile the
  log-sum-exp row is computed from the pair just stored. In every case the score-cache block is the transposed score
  tile.
-/
import proofs.«107496_j36386962931993_2_alg».proof.Proof.KI.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are all zero. -/
theorem whole_offsets : (![0, 0] : Fin 2 → Nat) = fun _ => 0 := by funext a; fin_cases a <;> rfl

/-! ## The first query tile of a key tile -/

/-- The score-cache block: the transposed score tile. -/
theorem out0_A_3_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) :
    out0_A_3 c i arg2 harg2 arg3 harg3 arg4 harg4 arg5 harg5 arg6 harg6 arg7 harg7 hc0 hc1 x0 x1 = k0_pay8 x0 x1 := by
  unfold out0_A_3
  rw [View.read_writes_eq_canon _ _ _ (cover0_A_3 c i arg2 harg2 arg3 harg3 arg4 harg4 arg5 harg5 arg6 harg6 arg7 harg7 hc0 hc1 x0 x1)]
  unfold kernelRun0_A
  dsimp only
  rw [View.canon_cons_unit_zero whole_offsets]
  simp only [View.readCov_unit_zero (S := S1024x1) _ whole_offsets, View.readAt_eq_ld, Memref.IsWhole.read_unread,
    View.ld_unit_zero (S := S1024x128) whole_offsets, View.ld_unit_zero (S := S1024x1) whole_offsets]

/-- The running maximum: the update of minus infinity. -/
theorem sout0_A_0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) :
    sout0_A_0 c i arg2 harg2 arg3 harg3 arg4 harg4 arg5 harg5 arg6 harg6 arg7 harg7 hc0 hc1 x0 x1 = k0_pay7 x0 x1 k0_pay2 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_run_names
  rw [View.canon_cons_unit_zero whole_offsets]
  simp only [View.readCov_unit_zero (S := S1024x1) _ whole_offsets, View.readAt_eq_ld, Memref.IsWhole.read_unread,
    View.ld_unit_zero (S := S1024x128) whole_offsets, View.ld_unit_zero (S := S1024x1) whole_offsets]

/-- The running total: the update of zero, rescaled from minus infinity. -/
theorem sout0_A_1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .bf16) :
    sout0_A_1 c i arg2 harg2 arg3 harg3 arg4 harg4 arg5 harg5 arg6 harg6 arg7 harg7 hc0 hc1 x0 x1 = k0_pay6 x0 x1 k0_pay2 k0_pay2 k0_pay3 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_run_names
  rw [View.canon_cons_unit_zero whole_offsets]
  simp only [View.readCov_unit_zero (S := S1024x1) _ whole_offsets, View.readAt_eq_ld, Memref.IsWhole.read_unread,
    View.ld_unit_zero (S := S1024x128) whole_offsets, View.ld_unit_zero (S := S1024x1) whole_offsets]

/-! ## A middle query tile -/

/-- The score-cache block: the transposed score tile. -/
theorem out0_B_3_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) :
    out0_B_3 c i arg2 harg2 arg3 harg3 arg4 harg4 arg5 harg5 arg6 harg6 arg7 harg7 hc0 hc1 x0 x1 xs0 xs1 = k0_pay8 x0 x1 := by
  unfold out0_B_3
  rw [View.read_writes_eq_canon _ _ _ (cover0_B_3 c i arg2 harg2 arg3 harg3 arg4 harg4 arg5 harg5 arg6 harg6 arg7 harg7 hc0 hc1 x0 x1 xs0 xs1)]
  unfold kernelRun0_B
  dsimp only
  rw [View.canon_cons_unit_zero whole_offsets]
  simp only [View.readCov_unit_zero (S := S1024x1) _ whole_offsets, View.readAt_eq_ld, Memref.IsWhole.read_unread,
    View.ld_unit_zero (S := S1024x128) whole_offsets, View.ld_unit_zero (S := S1024x1) whole_offsets]

/-- The running maximum: the update of the maximum found. -/
theorem sout0_B_0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) :
    sout0_B_0 c i arg2 harg2 arg3 harg3 arg4 harg4 arg5 harg5 arg6 harg6 arg7 harg7 hc0 hc1 x0 x1 xs0 xs1 = k0_pay7 x0 x1 xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  rw [View.canon_cons_unit_zero whole_offsets]
  simp only [View.readCov_unit_zero (S := S1024x1) _ whole_offsets, View.readAt_eq_ld, Memref.IsWhole.read_unread,
    View.ld_unit_zero (S := S1024x128) whole_offsets, View.ld_unit_zero (S := S1024x1) whole_offsets]

/-- The running total: the update of the total found, rescaled from the maximum found. -/
theorem sout0_B_1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .bf16) (xs0 xs1 : Vec F S1024x1 .f32) :
    sout0_B_1 c i arg2 harg2 arg3 harg3 arg4 harg4 arg5 harg5 arg6 harg6 arg7 harg7 hc0 hc1 x0 x1 xs0 xs1 = k0_pay6 x0 x1 xs0 xs0 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  rw [View.canon_cons_unit_zero whole_offsets]
  simp only [View.readCov_unit_zero (S := S1024x1) _ whole_offsets, View.readAt_eq_ld, Memref.IsWhole.read_unread,
    View.ld_unit_zero (S := S1024x128) whole_offsets, View.ld_unit_zero (S := S1024x1) whole_offsets]

/-! ## The last query tile of a key tile -/

/-- The score-cache block: the transposed score tile. -/
theorem out0_C_3_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) :
    out0_C_3 c i arg2 harg2 arg3 harg3 arg4 harg4 arg5 harg5 arg6 harg6 arg7 harg7 hc0 hc1 x0 x1 xs0 xs1 = k0_pay8 x0 x1 := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  rw [View.canon_cons_unit_zero whole_offsets]
  simp only [View.readCov_unit_zero (S := S1024x1) _ whole_offsets, View.readAt_eq_ld, Memref.IsWhole.read_unread,
    View.ld_unit_zero (S := S1024x128) whole_offsets, View.ld_unit_zero (S := S1024x1) whole_offsets]

/-- The running maximum: the update of the maximum found. -/
theorem sout0_C_0_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) :
    sout0_C_0 c i arg2 harg2 arg3 harg3 arg4 harg4 arg5 harg5 arg6 harg6 arg7 harg7 hc0 hc1 x0 x1 xs0 xs1 = k0_pay7 x0 x1 xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_run_names
  rw [View.canon_cons_unit_zero whole_offsets]
  simp only [View.readCov_unit_zero (S := S1024x1) _ whole_offsets, View.readAt_eq_ld, Memref.IsWhole.read_unread,
    View.ld_unit_zero (S := S1024x128) whole_offsets, View.ld_unit_zero (S := S1024x1) whole_offsets]

/-- The running total: the update of the total found, rescaled from the maximum found. -/
theorem sout0_C_1_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) :
    sout0_C_1 c i arg2 harg2 arg3 harg3 arg4 harg4 arg5 harg5 arg6 harg6 arg7 harg7 hc0 hc1 x0 x1 xs0 xs1 = k0_pay6 x0 x1 xs0 xs0 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_run_names
  rw [View.canon_cons_unit_zero whole_offsets]
  simp only [View.readCov_unit_zero (S := S1024x1) _ whole_offsets, View.readAt_eq_ld, Memref.IsWhole.read_unread,
    View.ld_unit_zero (S := S1024x128) whole_offsets, View.ld_unit_zero (S := S1024x1) whole_offsets]

/-- The log-sum-exp row: the final maximum plus the logarithm of the final total, as a row. -/
theorem out0_C_2_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .bf16) (xs0 xs1 : Vec F S1024x1 .f32) :
    out0_C_2 c i arg2 harg2 arg3 harg3 arg4 harg4 arg5 harg5 arg6 harg6 arg7 harg7 hc0 hc1 x0 x1 xs0 xs1 = k0_pay1 (k0_pay7 x0 x1 xs0) (k0_pay6 x0 x1 xs0 xs0 xs1) := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_run_names
  rw [View.canon_cons_unit_zero whole_offsets]
  simp only [View.readCov_unit_zero (S := S1024x1) _ whole_offsets, View.readAt_eq_ld, Memref.IsWhole.read_unread,
    View.ld_unit_zero (S := S1024x128) whole_offsets, View.ld_unit_zero (S := S1024x1) whole_offsets]

end Cert.KernelIdeal.Hand

end
-- ==== Proof.LibRowMax.lean ====
/-
  The maximum of each row of a matrix, read at a row.

  On the extended reals the maximum of an [a, b] array over its second axis, read at row r, is the fold of max, from the
  accumulator's value, over the columns k of the entry (r, k).
-/
import Idealize.ShloMosaic.Lib.ValueLayout
import Idealize.ShloMosaic.PureOps.Ideal.Laws

namespace RowMax

open Idealize.ShloMosaic Idealize.ShloMosaic.ValueIdx

/-- The row maximum at row r: the fold of max over that row's entries. -/
theorem rowMax_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ v acc h hφ hacc (ix1 r)
      = (Finset.univ : Finset (Fin b)).fold max (Ideal.ofBits φ acc) (fun k => v (ix2 r k)) := by
  refine (Ideal.multiReduction_maximumf_single v acc h hφ hacc (ix1 r)).trans ?_
  show (Finset.univ : Finset (Fin b)).fold max (Ideal.ofBits φ acc) (fun k => v (h.lift (ix1 r) k)) = _
  refine congrArg (fun f => (Finset.univ : Finset (Fin b)).fold max (Ideal.ofBits φ acc) f) (funext fun k => congrArg v (funext fun d => Fin.ext ?_))
  match d with
  | ⟨0, _⟩ => rfl
  | ⟨1, _⟩ => rfl

end RowMax
-- ==== Proof.LibKeepdims.lean ====
/-
  Arrays with a kept unit axis, read at an index given by coordinates.

  A row reduction that keeps its axis (the sum over the columns of an [a, b] array, kept as an [a, 1] column) is three
  operations: the sum over the second axis into [a], a cast of [a] to [a, 1], and, where the column meets an [a, b]
  array again, its broadcast along the rows. Read at coordinates: the sum at row r is the sum over the columns k of the
  entry (r, k); the cast's entry (r, 0) is the vector's entry r; the broadcast's entry (r, c) is the column's entry (r, 0).
-/
import Idealize.ShloMosaic.Lib.ValueLayout
import Idealize.ShloMosaic.PureOps.Ideal.Laws

namespace Keepdims

open Idealize.ShloMosaic Idealize.ShloMosaic.ValueIdx

variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column's entry at row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum of an [a, b] array over its second axis, read at row r, is the sum over the columns
    k of the entry (r, k). -/
theorem rowSum_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ v acc h hφ hacc (ix1 r) = ∑ k : Fin b, v (ix2 r k) := by
  refine (Ideal.multiReduction_add_single v acc h hφ hacc (ix1 r)).trans ?_
  show ∑ k : Fin b, v (h.lift (ix1 r) k) = ∑ k : Fin b, v (ix2 r k)
  refine Finset.sum_congr rfl fun k _ => congrArg v (funext fun d => Fin.ext ?_)
  match d with
  | ⟨0, _⟩ => rfl
  | ⟨1, _⟩ => rfl

/-- The kept-axis row sum: the sum over the second axis cast to a column reads, at (r, 0), the sum over the columns k
    of the entry (r, k). -/
theorem rowSumKeep_apply {a b : ℕ} {φ : FTy} (v : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (r : Fin a) (u : Fin 1) :
    shapeCast ⟨2, ![a, 1]⟩ (multiReduction .add [1] ⟨1, ![a]⟩ v acc h hφ hacc) hc (ix2 r u) = ∑ k : Fin b, v (ix2 r k) :=
  (shapeCast_a_a1_apply _ hc r u).trans (rowSum_apply v acc h hφ hacc r)

end Keepdims
-- ==== Proof.Val.PayConst.lean ====
/-
  The constant payloads of the two kernel bodies, read at an index: the running maximum starts at minus infinity, the
  running sum and the output accumulator start at zero.
-/
import proofs.«107496_j36386962931993_2_alg».proof.Proof.Gen.KernelIdeal.Skeleton
import proofs.«107496_j36386962931993_2_alg».proof.Proof.LibRowMax
import proofs.«107496_j36386962931993_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx

/-- The word 0xFF800000 is minus infinity. -/
theorem ofBits_negInf_f32 : Ideal.ofBits .f32 0xFF800000#32 = ⊥ := by
  simp [Ideal.ofBits, Ideal.ieee]

/-- The initial running maximum is minus infinity at every row. -/
theorem pay2_apply (r : Fin 1024) (u : Fin 1) : k0_pay2 (F := Ideal) (ix2 r u) = ⊥ := by
  unfold k0_pay2
  rw [shapeCast_self]
  exact ofBits_negInf_f32

/-- The initial running sum is zero at every row. -/
theorem pay3_apply (r : Fin 1024) (u : Fin 1) : k0_pay3 (F := Ideal) (ix2 r u) = 0 := by
  unfold k0_pay3
  rw [shapeCast_self]
  exact Ideal.ofBits_zero_f32

/-- The initial output accumulator is zero at every entry. -/
theorem k1_pay1_apply (r : Fin 1024) (d : Fin 128) : k1_pay1 (F := Ideal) (ix2 r d) = 0 := by
  unfold k1_pay1
  rw [shapeCast_self]
  exact Ideal.ofBits_zero_f32

end Cert.KernelIdeal.Pay

end
-- ==== Proof.Val.Pay4.lean ====
/-
  The score tile of the first kernel body, read at an index: the product of the key tile with the transposed query
  tile is, at (key r, query c), the sum over the feature axis of the key's entry times the query's entry.
-/
import proofs.«107496_j36386962931993_2_alg».proof.Proof.Gen.KernelIdeal.Skeleton
import proofs.«107496_j36386962931993_2_alg».proof.Proof.LibRowMax
import proofs.«107496_j36386962931993_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx

/-- The score of key row r against query row c: the sum over the features d of K[r, d] * Q[c, d]. -/
def tileScore (kb qb : Vec Ideal S1024x128 .bf16) (r c : Fin 1024) : EReal :=
  ∑ d : Fin 128, kb (ix2 r d) * qb (ix2 c d)

/-- The left operand's row is the output's row. -/
theorem lhs_score_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
/-- The left operand's column is the contraction coordinate. -/
theorem lhs_score_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
/-- The right operand's row is the contraction coordinate. -/
theorem rhs_score_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
/-- The right operand's column is the output's column. -/
theorem rhs_score_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The score tile at (r, c) is the score of key row r against query row c. -/
theorem pay4_apply (kb qb : Vec Ideal S1024x128 .bf16) (r c : Fin 1024) :
    k0_pay4 (F := Ideal) kb qb (ix2 r c) = tileScore kb qb r c := by
  unfold k0_pay4 tileScore
  simp only [shapeCast_self]
  refine (Ideal.matmul_constant_zero_apply dot_S1024x128_S128x1024_S1024x1024_1_0_0_1_n_n none kb
    (transpose S128x1024 [1, 0] qb transposes_S1024x128_p1_0_S128x1024) (ix2 r c)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 r c)
      ((contrEquiv1 dot_S1024x128_S128x1024_S1024x1024_1_0_0_1_n_n 128 rfl rfl).symm k) = ix2 r k :=
    funext fun a => Fin.ext (by
      match a with
      | ⟨0, _⟩ => exact lhs_score_0 _ _
      | ⟨1, _⟩ => exact (lhs_score_1 _ _).trans hk)
  have er : dot_S1024x128_S128x1024_S1024x1024_1_0_0_1_n_n.rhsIdx (ix2 r c)
      ((contrEquiv1 dot_S1024x128_S128x1024_S1024x1024_1_0_0_1_n_n 128 rfl rfl).symm k) = ix2 k c :=
    funext fun a => Fin.ext (by
      match a with
      | ⟨0, _⟩ => exact (rhs_score_0 _ _).trans hk
      | ⟨1, _⟩ => exact rhs_score_1 _ _)
  rw [el, er]
  exact congrArg (kb (ix2 r k) * ·) (transpose_ix2_apply qb transposes_S1024x128_p1_0_S128x1024 k c)

end Cert.KernelIdeal.Pay

end
-- ==== Proof.Val.Pay0.lean ====
/-
  The first kernel body's running statistics, read at an index. With s(r, c) the score of key row r against query
  row c of the tile: the new running maximum at row r is the larger of the old one and the largest score of the row;
  the new running sum is the old one rescaled by exp (old maximum - new maximum) plus the row's sum of
  exp (score - new maximum); the cached tile is the transposed score tile; the log-sum-exp row is maximum + log sum.
-/
import proofs.«107496_j36386962931993_2_alg».proof.Proof.Gen.KernelIdeal.Skeleton
import proofs.«107496_j36386962931993_2_alg».proof.Proof.LibRowMax
import proofs.«107496_j36386962931993_2_alg».proof.Proof.LibKeepdims
import proofs.«107496_j36386962931993_2_alg».proof.Proof.Val.PayConst
import proofs.«107496_j36386962931993_2_alg».proof.Proof.Val.Pay4
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx

/-- The new running maximum at row r: the larger of the old maximum and the row's largest score. -/
theorem pay5_apply (kb qb : Vec Ideal S1024x128 .bf16) (mp : Vec Ideal S1024x1 .f32) (r : Fin 1024) (u : Fin 1) :
    k0_pay5 (F := Ideal) kb qb mp (ix2 r u)
      = max (mp (ix2 r u)) ((Finset.univ : Finset (Fin 1024)).fold max ⊥ fun c => tileScore kb qb r c) := by
  unfold k0_pay5
  refine (maximumf_apply _ _ _).trans ?_
  refine congrArg (max (mp (ix2 r u))) ?_
  refine (Keepdims.shapeCast_a_a1_apply _ shapeCasts_S1024_S1024x1 r u).trans ?_
  refine (RowMax.rowMax_apply (k0_pay4 (F := Ideal) kb qb) 0xFF800000#32 reduces_S1024x1024_S1024 (.inl rfl) rfl r).trans ?_
  rw [ofBits_negInf_f32]
  exact congrArg (fun f => (Finset.univ : Finset (Fin 1024)).fold max ⊥ f) (funext fun c => pay4_apply kb qb r c)

/-- The stored running maximum is the new running maximum. -/
theorem pay7_apply (kb qb : Vec Ideal S1024x128 .bf16) (mp : Vec Ideal S1024x1 .f32) (r : Fin 1024) (u : Fin 1) :
    k0_pay7 (F := Ideal) kb qb mp (ix2 r u)
      = max (mp (ix2 r u)) ((Finset.univ : Finset (Fin 1024)).fold max ⊥ fun c => tileScore kb qb r c) := by
  unfold k0_pay7
  rw [shapeCast_self]
  exact pay5_apply kb qb mp r u

/-- The cached tile at (query c, key r) is the score of key row r against query row c. -/
theorem pay8_apply (kb qb : Vec Ideal S1024x128 .bf16) (r c : Fin 1024) :
    k0_pay8 (F := Ideal) kb qb (ix2 c r) = tileScore kb qb r c := by
  unfold k0_pay8
  refine (truncf_apply (ψ := .bf16) (transpose S1024x1024 [1, 0] (k0_pay4 (F := Ideal) kb qb) transposes_S1024x1024_p1_0_S1024x1024) bitsLt_bf16_f32 (ix2 c r)).trans ?_
  refine (transpose_ix2_apply (k0_pay4 (F := Ideal) kb qb) transposes_S1024x1024_p1_0_S1024x1024 c r).trans ?_
  exact pay4_apply kb qb r c

/-- The new running sum at row r: the old sum rescaled to the new maximum plus the row's sum of exp (score - new maximum). -/
theorem pay6_apply (kb qb : Vec Ideal S1024x128 .bf16) (mp mp' lp : Vec Ideal S1024x1 .f32) (r : Fin 1024) (u : Fin 1) :
    k0_pay6 (F := Ideal) kb qb mp mp' lp (ix2 r u)
      = Ideal.exp (mp' (ix2 r u) - k0_pay5 (F := Ideal) kb qb mp (ix2 r u)) * lp (ix2 r u)
        + ∑ c : Fin 1024, Ideal.exp (tileScore kb qb r c - k0_pay5 (F := Ideal) kb qb mp (ix2 r u)) := by
  obtain rfl : u = 0 := Subsingleton.elim _ _
  unfold k0_pay6
  rw [shapeCast_self]
  refine (addf_apply _ _ _).trans ?_
  refine congrArg (Ideal.exp (mp' (ix2 r 0) - k0_pay5 (F := Ideal) kb qb mp (ix2 r 0)) * lp (ix2 r 0) + ·) ?_
  refine (Keepdims.rowSumKeep_apply _ 0x00000000#32 reduces_S1024x1024_S1024 (.inl rfl) rfl shapeCasts_S1024_S1024x1 r 0).trans ?_
  refine Finset.sum_congr rfl fun c _ => ?_
  show Ideal.exp (k0_pay4 (F := Ideal) kb qb (ix2 r c)
    - broadcastTo S1024x1024 (k0_pay5 (F := Ideal) kb qb mp) broadcasts_S1024x1_S1024x1024 (ix2 r c)) = _
  rw [pay4_apply, Keepdims.broadcastTo_a1_ab_apply]

/-- The log-sum-exp row at query r: the running maximum plus the logarithm of the running sum. -/
theorem pay1_apply (mv lv : Vec Ideal S1024x1 .f32) (u : Fin 1) (r : Fin 1024) :
    k0_pay1 (F := Ideal) mv lv (ix2 u r) = mv (ix2 r (0 : Fin 1)) + Ideal.log (lv (ix2 r (0 : Fin 1))) := by
  obtain rfl : u = 0 := Subsingleton.elim _ _
  unfold k0_pay1
  exact (transpose_ix2_apply _ transposes_S1024x1_p1_0_S1x1024 0 r).trans rfl

end Cert.KernelIdeal.Pay

end
-- ==== Proof.Val.Blocks0.lean ====
/-
  The statistics pass's input blocks, read at an index of the arrays they are cut from.

  The grid point t = 8 i + j works on key tile i and query tile j: its key block is rows 1024 i … 1024 i + 1023 of the
  key array, its query block rows 1024 j … 1024 j + 1023 of the query array.
-/
import proofs.«107496_j36386962931993_2_alg».proof.Proof.KI.R0Frame
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the contents of the unscoped buffers when the region is entered, on the extended reals
variable (V : (c : Dev nD) → (b : Ref sig .tc) → Buf (Elt Ideal) ((c : Thread nD τ).loc b))

/-- The key array as the region finds it. -/
def kArr (c : Dev nD) : Fin 8192 → Fin 128 → EReal := fun n d => V c main_v1 (ix2 n d)
/-- The query array as the region finds it. -/
def qArr (c : Dev nD) : Fin 8192 → Fin 128 → EReal := fun n d => V c main_v0 (ix2 n d)

/-- The grid has 64 points. -/
theorem point_lt (t : Fin cfg0.N) : t.val < 64 := lt_of_lt_of_eq t.isLt N_0

/-- The block indices of the two input windows at point t: the key window is at (t / 8, 0), the query window at
    (t % 8, 0). -/
theorem in_index0 : ∀ t : Fin cfg0.N, win0_0.index t (0 : Fin 2) = t.val / 8 ∧ win0_0.index t (1 : Fin 2) = 0
    ∧ win0_1.index t (0 : Fin 2) = t.val % 8 ∧ win0_1.index t (1 : Fin 2) = 0 :=
  (by decide +kernel : ∀ t : Fin grid0.N, _)

/-- The key block at point t reads row 1024 (t / 8) + r of the key array. -/
theorem blk0_0_apply (c : Dev nD) (t : Fin cfg0.N) (r : Fin 1024) (d : Fin 128) :
    iblk0 V c 0 t (ix2 r d)
      = V c main_v1 (ix2 (⟨1024 * (t.val / 8) + r.val, by have := point_lt t; have := r.isLt; omega⟩ : Fin 8192) d) := by
  obtain ⟨e0, e1, -, -⟩ := in_index0 t
  show V c main_v1 (((cfg0.win 0).blk t).view.emb (ix2 r d)) = _
  refine congrArg (V c main_v1) (funext fun a => Fin.ext ?_)
  match a with
  | ⟨0, _⟩ => show win0_0.index t (0 : Fin 2) * 1024 + 1 * r.val = 1024 * (t.val / 8) + r.val; omega
  | ⟨1, _⟩ => show win0_0.index t (1 : Fin 2) * 128 + 1 * d.val = d.val; omega

/-- The query block at point t reads row 1024 (t % 8) + r of the query array. -/
theorem blk0_1_apply (c : Dev nD) (t : Fin cfg0.N) (r : Fin 1024) (d : Fin 128) :
    iblk0 V c 1 t (ix2 r d)
      = V c main_v0 (ix2 (⟨1024 * (t.val % 8) + r.val, by have := r.isLt; omega⟩ : Fin 8192) d) := by
  obtain ⟨-, -, e2, e3⟩ := in_index0 t
  show V c main_v0 (((cfg0.win 1).blk t).view.emb (ix2 r d)) = _
  refine congrArg (V c main_v0) (funext fun a => Fin.ext ?_)
  match a with
  | ⟨0, _⟩ => show win0_1.index t (0 : Fin 2) * 1024 + 1 * r.val = 1024 * (t.val % 8) + r.val; omega
  | ⟨1, _⟩ => show win0_1.index t (1 : Fin 2) * 128 + 1 * d.val = d.val; omega

end Cert.KernelIdeal.Val

end
-- ==== Proof.Ref.Spec.lean ====
/-
  The two arrangements of one attention with the softmax taken down the query axis, as functions on the extended reals.

  Scores are `S n m = Σ_d q n d · k m d` for query `n` and key `m`. The first arrangement normalises every key column
  over all queries at once: the column's largest score is taken away, the exponentials are divided by their column
  total, and the shares weight the value rows. The second arrangement walks the queries tile by tile (8 tiles of 1024),
  keeping for each key a running largest score and a running total rescaled whenever the largest score grows, ends
  with the column's log-sum-exp, and then accumulates `exp (S − lse)`-weighted value rows key tile by key tile.
-/
import Idealize.ShloMosaic.PureOps.Ideal

noncomputable section

namespace ColSoftmax

open Idealize.ShloMosaic

variable (q k v : Fin 8192 → Fin 128 → EReal)

/-- The position in 0 … 8191 of offset `c` inside tile `j` (tiles counted modulo 8). -/
def pos (j : ℕ) (c : Fin 1024) : Fin 8192 := ⟨1024 * (j % 8) + c.val, by have := c.isLt; have := Nat.mod_lt j (show 0 < 8 by decide); omega⟩

/-! ## All queries at once -/

/-- The score of query `n` against key `m`. -/
def score (n m : Fin 8192) : EReal := ∑ d : Fin 128, q n d * k m d

/-- The largest score in key column `m`, from −∞. -/
def colMax (m : Fin 8192) : EReal := max ⊥ ((Finset.univ : Finset (Fin 8192)).fold max ⊥ fun n => score q k n m)

/-- The shifted exponential of an entry. -/
def weight (n m : Fin 8192) : EReal := Ideal.exp (score q k n m - colMax q k m)

/-- The total of a column's shifted exponentials. -/
def colSum (m : Fin 8192) : EReal := ∑ n : Fin 8192, weight q k n m

/-- An entry's share of its column. -/
def share (n m : Fin 8192) : EReal := Ideal.div (weight q k n m) (colSum q k m)

/-- The attention output. -/
def out (n : Fin 8192) (d : Fin 128) : EReal := ∑ m : Fin 8192, share q k n m * v m d

/-! ## Tile by tile -/

/-- The score as the tiled arrangement multiplies it: key row by query row. -/
def scoreT (m n : Fin 8192) : EReal := ∑ d : Fin 128, k m d * q n d

section Running

-- one key's scores against the queries: tile `j`, offset `c`
variable (s : ℕ → Fin 1024 → EReal)

/-- The largest score within tile `j`, from −∞. -/
def tileMax (j : ℕ) : EReal := (Finset.univ : Finset (Fin 1024)).fold max ⊥ (s j)

/-- The running largest score after tiles 0 … j. -/
def runMax : ℕ → EReal
  | 0 => max ⊥ (tileMax s 0)
  | j + 1 => max (runMax j) (tileMax s (j + 1))

/-- The running total after tiles 0 … j, each time rescaled to the current largest score. -/
def runSum : ℕ → EReal
  | 0 => Ideal.exp (⊥ - runMax s 0) * 0 + ∑ c : Fin 1024, Ideal.exp (s 0 c - runMax s 0)
  | j + 1 => Ideal.exp (runMax s j - runMax s (j + 1)) * runSum j + ∑ c : Fin 1024, Ideal.exp (s (j + 1) c - runMax s (j + 1))

end Running

/-- Key `m`'s log-sum-exp down its column, as the running pair leaves it after the eighth tile. -/
def lse (m : Fin 8192) : EReal :=
  runMax (fun j c => scoreT q k m (pos j c)) 7 + Ideal.log (runSum (fun j c => scoreT q k m (pos j c)) 7)

/-- The contribution of key tile `j` to output entry `(n, d)`. -/
def tileTerm (n : Fin 8192) (d : Fin 128) (j : ℕ) : EReal :=
  ∑ c : Fin 1024, Ideal.exp (scoreT q k (pos j c) n - lse q k (pos j c)) * v (pos j c) d

/-- The accumulator after key tiles 0 … j, started from zero. -/
def acc (n : Fin 8192) (d : Fin 128) : ℕ → EReal
  | 0 => 0 + tileTerm q k v n d 0
  | j + 1 => acc n d j + tileTerm q k v n d (j + 1)

/-- The tiled arrangement's output. -/
def outTiled (n : Fin 8192) (d : Fin 128) : EReal := acc q k v n d 7

end ColSoftmax

end
-- ==== Proof.Val.Score0.lean ====
/-
  The score tile of a grid point, in the arrays' own coordinates: at point t = 8 i + j the tile's entry (r, cq) is the
  score of key 1024 i + r against query 1024 j + cq.
-/
import proofs.«107496_j36386962931993_2_alg».proof.Proof.Val.Blocks0
import proofs.«107496_j36386962931993_2_alg».proof.Proof.Val.Pay4
import proofs.«107496_j36386962931993_2_alg».proof.Proof.Ref.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the contents of the unscoped buffers when the region is entered, on the extended reals
variable (V : (c : Dev nD) → (b : Ref sig .tc) → Buf (Elt Ideal) ((c : Thread nD τ).loc b))

/-- Row r of key tile t / 8 is key number 1024 (t / 8) + r. -/
theorem key_row (t : Fin cfg0.N) (r : Fin 1024) (h : 1024 * (t.val / 8) + r.val < 8192) :
    (⟨1024 * (t.val / 8) + r.val, h⟩ : Fin 8192) = ColSoftmax.pos (t.val / 8) r :=
  Fin.ext (by show 1024 * (t.val / 8) + r.val = 1024 * (t.val / 8 % 8) + r.val; have := point_lt t; omega)

/-- Row cq of query tile t % 8 is query number 1024 (t % 8) + cq. -/
theorem query_row (t : Fin cfg0.N) (cq : Fin 1024) (h : 1024 * (t.val % 8) + cq.val < 8192) :
    (⟨1024 * (t.val % 8) + cq.val, h⟩ : Fin 8192) = ColSoftmax.pos (t.val % 8) cq :=
  Fin.ext (by show 1024 * (t.val % 8) + cq.val = 1024 * (t.val % 8 % 8) + cq.val; omega)

/-- The score tile of point t at (r, cq): the score of key pos (t / 8) r against query pos (t % 8) cq. -/
theorem tile_score_eq (c : Dev nD) (t : Fin cfg0.N) (r cq : Fin 1024) :
    Pay.tileScore (iblk0 V c 0 t) (iblk0 V c 1 t) r cq
      = ColSoftmax.scoreT (qArr V c) (kArr V c) (ColSoftmax.pos (t.val / 8) r) (ColSoftmax.pos (t.val % 8) cq) := by
  unfold Pay.tileScore ColSoftmax.scoreT
  refine Finset.sum_congr rfl fun d _ => ?_
  exact congrArg₂ (· * ·)
    ((blk0_0_apply V c t r d).trans (congrArg (fun n => V c main_v1 (ix2 n d)) (key_row t r _)))
    ((blk0_1_apply V c t cq d).trans (congrArg (fun n => V c main_v0 (ix2 n d)) (query_row t cq _)))

end Cert.KernelIdeal.Val

end
-- ==== Proof.Val.Arrays0.lean ====
/-
  The score table the statistics pass writes.

  At point t = 8·i + j the pass stores into block (j, i) of the table the transposed score tile of key tile i against
  query tile j. The 64 blocks tile the table, so when the pass is over the table's entry (n, m) is the score of key m
  against query n.
-/
import proofs.«107496_j36386962931993_2_alg».proof.Proof.KI.R0Pieces
import proofs.«107496_j36386962931993_2_alg».proof.Proof.Val.Pay0
import proofs.«107496_j36386962931993_2_alg».proof.Proof.Val.Score0
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the contents of the unscoped buffers when the region is entered, on the extended reals
variable (V : (c : Dev nD) → (b : Ref sig .tc) → Buf (Elt Ideal) ((c : Thread nD τ).loc b))

/-- The block indices of the two output windows at point t = 8·i + j: the log-sum-exp row's is (0, i), the score
    table's is (j, i). -/
theorem out_index0 : ∀ t : Fin cfg0.N, win0_2.index t (0 : Fin 2) = 0 ∧ win0_2.index t (1 : Fin 2) = t.val / 8
    ∧ win0_3.index t (0 : Fin 2) = t.val % 8 ∧ win0_3.index t (1 : Fin 2) = t.val / 8 :=
  (by decide +kernel : ∀ t : Fin grid0.N, _)

/-! ## The table's block after each point -/

/-- After every point the table's staging block holds the transposed score tile of the point's two input blocks. -/
theorem cache_block (c : Dev nD) (t : Fin cfg0.N) :
    (outsAt0 V c t.val t.isLt).2.1 = k0_pay8 (F := Ideal) (iblk0 V c 0 t) (iblk0 V c 1 t) := by
  by_cases h0 : t.val % 8 = 0
  · have hc0 : cond0_0 (grid0.coords t) := (hcond0_0 t).mpr h0
    have hc1 : ¬cond0_1 (grid0.coords t) := fun h => by have := (hcond0_1 t).mp h; omega
    rw [outsAt0_A V c t h0 hc0 hc1]
    unfold at0_A
    dsimp only
    exact out0_A_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t)
  · have hc0 : ¬cond0_0 (grid0.coords t) := fun h => h0 ((hcond0_0 t).mp h)
    by_cases h1 : t.val % 8 = 7
    · have hc1 : cond0_1 (grid0.coords t) := (hcond0_1 t).mpr h1
      rw [outsAt0_C V c t h0 h1 hc0 hc1]
      unfold at0_C
      dsimp only
      exact out0_C_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) _ _
    · have hc1 : ¬cond0_1 (grid0.coords t) := fun h => h1 ((hcond0_1 t).mp h)
      rw [outsAt0_B V c t h0 h1 hc0 hc1]
      unfold at0_B
      dsimp only
      exact out0_B_3_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 (iblk0 V c 0 t) (iblk0 V c 1 t) _ _

/-! ## From the blocks to the table -/

/-- The table of transposed scores: entry (n, m) is the score of key m against query n. -/
def scoreTable (c : Dev nD) : S8192x8192.Idx → EReal := fun i => ColSoftmax.scoreT (qArr V c) (kArr V c) (i 1) (i 0)

/-- What point t writes back is block t of the table of transposed scores. -/
theorem cache_flushed (c : Dev nD) (t : Fin cfg0.N) :
    (dat0 V c).flushed 3 t = ((cfg0.win 3).blk t).view.read (Elt Ideal) (scoreTable V c) := by
  show (cfg0.win 3).cut (grid0.coords t) ((dat0 V c).after 3 t) = _
  rw [after0_3, cache_block]
  obtain ⟨-, -, e0, e1⟩ := out_index0 t
  have ht := point_lt t
  funext j
  obtain ⟨a, b, rfl⟩ : ∃ (a b : Fin 1024), j = ix2 a b := ⟨j 0, j 1, eq_ix2 j⟩
  show k0_pay8 (F := Ideal) (iblk0 V c 0 t) (iblk0 V c 1 t) (ix2 a b) = scoreTable V c (((cfg0.win 3).blk t).view.emb (ix2 a b))
  refine (Pay.pay8_apply (iblk0 V c 0 t) (iblk0 V c 1 t) b a).trans ?_
  refine (tile_score_eq V c t b a).trans ?_
  unfold scoreTable
  refine congrArg₂ (ColSoftmax.scoreT (qArr V c) (kArr V c)) (Fin.ext ?_) (Fin.ext ?_)
  · show 1024 * (t.val / 8 % 8) + b.val = win0_3.index t (1 : Fin 2) * 1024 + 1 * b.val
    rw [e1]; omega
  · show 1024 * (t.val % 8 % 8) + a.val = win0_3.index t (0 : Fin 2) * 1024 + 1 * a.val
    rw [e0]; omega

/-- An entry of the table is in point t's block exactly when each coordinate is in the block's range. -/
theorem mem_cache_blk (t : Fin cfg0.N) (i : S8192x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v3_1).slice (win0_3.rect t)).set ↔ _
  rw [View.set_slice_whole, Rect.mem_set_unit]
  exact Iff.rfl

/-- Every entry of the table is in some point's block. -/
theorem cache_cover (i : S8192x8192.Idx) :
    ∃ t : Fin cfg0.N, (cfg0.win 3).flush t = true ∧ i ∈ ((cfg0.win 3).blk t).view.set := by
  have h0 : (i 0).val < 8192 := (i 0).isLt
  have h1 : (i 1).val < 8192 := (i 1).isLt
  have hN : 8 * ((i 1).val / 1024) + (i 0).val / 1024 < cfg0.N := by rw [show cfg0.N = 64 from N_0]; omega
  refine ⟨⟨8 * ((i 1).val / 1024) + (i 0).val / 1024, hN⟩, flush0_3 _, ?_⟩
  obtain ⟨-, -, e0, e1⟩ := out_index0 ⟨8 * ((i 1).val / 1024) + (i 0).val / 1024, hN⟩
  rw [mem_cache_blk]
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 1024 ≤ (i 1).val ∧ (i 1).val < win0_3.index _ (1 : Fin 2) * 1024 + 1024
    rw [e1]; dsimp only; omega

/-- THE SCORE TABLE after the statistics pass: entry (n, m) is the score of key m against query n. -/
theorem cacheArr (c : Dev nD) (n mk : Fin 8192) :
    (dat0 V c).arrAt 3 cfg0.N (ix2 n mk) = ColSoftmax.scoreT (qArr V c) (kArr V c) mk n :=
  congrFun ((dat0 V c).arrAt_eq_of_cover 3 (scoreTable V c) (fun t _ => cache_flushed V c t) (fun i => cache_cover i)) (ix2 n mk)

end Cert.KernelIdeal.Val

end
-- ==== Proof.Val.Step0.lean ====
/-
  One step of the running pair, as pure arithmetic at a row.

  With s j c the score of the row's key against query c of query tile j: after the first tile the pair is the first
  values of the running maximum and the running total; after a later tile it is their next values, given that the
  pair found held the previous ones.
-/
import proofs.«107496_j36386962931993_2_alg».proof.Proof.Gen.KernelIdeal.Skeleton
import proofs.«107496_j36386962931993_2_alg».proof.Proof.LibRowMax
import proofs.«107496_j36386962931993_2_alg».proof.Proof.LibKeepdims
import proofs.«107496_j36386962931993_2_alg».proof.Proof.Val.Pay0
import proofs.«107496_j36386962931993_2_alg».proof.Proof.Ref.Spec
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx

open ColSoftmax

variable (x0 x1 : Vec Ideal S1024x128 .bf16) (s : ℕ → Fin 1024 → EReal) (r : Fin 1024) (u : Fin 1)

/-- The first tile's new maximum is the running maximum after tile 0. -/
theorem first_max (hs : ∀ cq, tileScore x0 x1 r cq = s 0 cq) :
    k0_pay5 (F := Ideal) x0 x1 (k0_pay2 (F := Ideal)) (ix2 r u) = runMax s 0 := by
  refine (pay5_apply x0 x1 (k0_pay2 (F := Ideal)) r u).trans ?_
  rw [pay2_apply, show (fun c => tileScore x0 x1 r c) = s 0 from funext hs]
  rfl

/-- The first tile's stored maximum is the running maximum after tile 0. -/
theorem stepA_max (hs : ∀ cq, tileScore x0 x1 r cq = s 0 cq) :
    k0_pay7 (F := Ideal) x0 x1 (k0_pay2 (F := Ideal)) (ix2 r u) = runMax s 0 :=
  (pay7_apply x0 x1 (k0_pay2 (F := Ideal)) r u).trans ((pay5_apply x0 x1 (k0_pay2 (F := Ideal)) r u).symm.trans (first_max x0 x1 s r u hs))

/-- The first tile's stored total is the running total after tile 0. -/
theorem stepA_sum (hs : ∀ cq, tileScore x0 x1 r cq = s 0 cq) :
    k0_pay6 (F := Ideal) x0 x1 (k0_pay2 (F := Ideal)) (k0_pay2 (F := Ideal)) (k0_pay3 (F := Ideal)) (ix2 r u) = runSum s 0 := by
  refine (pay6_apply x0 x1 (k0_pay2 (F := Ideal)) (k0_pay2 (F := Ideal)) (k0_pay3 (F := Ideal)) r u).trans ?_
  rw [first_max x0 x1 s r u hs, pay2_apply, pay3_apply]
  simp only [hs]
  rfl

variable (xs0 xs1 : Vec Ideal S1024x1 .f32) (j : ℕ)

/-- A later tile's new maximum is the running maximum's next value. -/
theorem next_max (hs : ∀ cq, tileScore x0 x1 r cq = s (j + 1) cq) (h0 : xs0 (ix2 r u) = runMax s j) :
    k0_pay5 (F := Ideal) x0 x1 xs0 (ix2 r u) = runMax s (j + 1) := by
  refine (pay5_apply x0 x1 xs0 r u).trans ?_
  rw [h0, show (fun c => tileScore x0 x1 r c) = s (j + 1) from funext hs]
  rfl

/-- A later tile's stored maximum is the running maximum's next value. -/
theorem stepB_max (hs : ∀ cq, tileScore x0 x1 r cq = s (j + 1) cq) (h0 : xs0 (ix2 r u) = runMax s j) :
    k0_pay7 (F := Ideal) x0 x1 xs0 (ix2 r u) = runMax s (j + 1) :=
  (pay7_apply x0 x1 xs0 r u).trans ((pay5_apply x0 x1 xs0 r u).symm.trans (next_max x0 x1 s r u xs0 j hs h0))

/-- A later tile's stored total is the running total's next value. -/
theorem stepB_sum (hs : ∀ cq, tileScore x0 x1 r cq = s (j + 1) cq) (h0 : xs0 (ix2 r u) = runMax s j)
    (h1 : xs1 (ix2 r u) = runSum s j) :
    k0_pay6 (F := Ideal) x0 x1 xs0 xs0 xs1 (ix2 r u) = runSum s (j + 1) := by
  refine (pay6_apply x0 x1 xs0 xs0 xs1 r u).trans ?_
  rw [next_max x0 x1 s r u xs0 j hs h0, h0, h1]
  simp only [hs]
  rfl

end Cert.KernelIdeal.Pay

end
-- ==== Proof.Val.Chain0.lean ====
/-
  The running pair along a key tile's eight grid points.

  At point t = 8 i + j, row r of the running maximum is the running maximum after query tiles 0 … j of key 1024 i + r's
  scores, and row r of the running total is the running total after them: the first point of a key tile starts the
  pair from minus infinity and zero, every later point updates the pair the point before left.
-/
import proofs.«107496_j36386962931993_2_alg».proof.Proof.KI.R0Pieces
import proofs.«107496_j36386962931993_2_alg».proof.Proof.Val.Score0
import proofs.«107496_j36386962931993_2_alg».proof.Proof.Val.Step0
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the contents of the unscoped buffers when the region is entered, on the extended reals
variable (V : (c : Dev nD) → (b : Ref sig .tc) → Buf (Elt Ideal) ((c : Thread nD τ).loc b))

open ColSoftmax

/-- Key 1024 i + r's scores against the queries: tile j, offset cq. -/
abbrev rowScores (c : Dev nD) (i : ℕ) (r : Fin 1024) : ℕ → Fin 1024 → EReal :=
  fun j cq => scoreT (qArr V c) (kArr V c) (pos i r) (pos j cq)

/-! ## What a point leaves in the running pair, as the body's arithmetic on its two blocks x0, x1 -/

theorem at0_A_max (c : Dev nD) (t : Fin cfg0.N) (hc0 : cond0_0 (grid0.coords t)) (hc1 : ¬cond0_1 (grid0.coords t))
    (x0 x1 : Vec Ideal S1024x128 .bf16) (e0 : x0 = iblk0 V c 0 t) (e1 : x1 = iblk0 V c 1 t) :
    (at0_A V c t hc0 hc1).2.2.1 = k0_pay7 x0 x1 (k0_pay2 (F := Ideal)) := by
  unfold at0_A
  dsimp only
  rw [← e0, ← e1]
  exact sout0_A_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 x0 x1
theorem at0_A_sum (c : Dev nD) (t : Fin cfg0.N) (hc0 : cond0_0 (grid0.coords t)) (hc1 : ¬cond0_1 (grid0.coords t))
    (x0 x1 : Vec Ideal S1024x128 .bf16) (e0 : x0 = iblk0 V c 0 t) (e1 : x1 = iblk0 V c 1 t) :
    (at0_A V c t hc0 hc1).2.2.2 = k0_pay6 x0 x1 (k0_pay2 (F := Ideal)) (k0_pay2 (F := Ideal)) (k0_pay3 (F := Ideal)) := by
  unfold at0_A
  dsimp only
  rw [← e0, ← e1]
  exact sout0_A_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 x0 x1
theorem at0_B_max (c : Dev nD) (t : Fin cfg0.N) (hc0 : ¬cond0_0 (grid0.coords t)) (hc1 : ¬cond0_1 (grid0.coords t))
    (p : Vec Ideal S1024x1 .f32 × Vec Ideal S1024x1 .f32) (x0 x1 : Vec Ideal S1024x128 .bf16) (e0 : x0 = iblk0 V c 0 t) (e1 : x1 = iblk0 V c 1 t) :
    (at0_B V c t hc0 hc1 p).2.2.1 = k0_pay7 x0 x1 p.1 := by
  unfold at0_B
  dsimp only
  rw [← e0, ← e1]
  exact sout0_B_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 x0 x1 p.1 p.2
theorem at0_B_sum (c : Dev nD) (t : Fin cfg0.N) (hc0 : ¬cond0_0 (grid0.coords t)) (hc1 : ¬cond0_1 (grid0.coords t))
    (p : Vec Ideal S1024x1 .f32 × Vec Ideal S1024x1 .f32) (x0 x1 : Vec Ideal S1024x128 .bf16) (e0 : x0 = iblk0 V c 0 t) (e1 : x1 = iblk0 V c 1 t) :
    (at0_B V c t hc0 hc1 p).2.2.2 = k0_pay6 x0 x1 p.1 p.1 p.2 := by
  unfold at0_B
  dsimp only
  rw [← e0, ← e1]
  exact sout0_B_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 x0 x1 p.1 p.2
theorem at0_C_max (c : Dev nD) (t : Fin cfg0.N) (hc0 : ¬cond0_0 (grid0.coords t)) (hc1 : cond0_1 (grid0.coords t))
    (p : Vec Ideal S1024x1 .f32 × Vec Ideal S1024x1 .f32) (x0 x1 : Vec Ideal S1024x128 .bf16) (e0 : x0 = iblk0 V c 0 t) (e1 : x1 = iblk0 V c 1 t) :
    (at0_C V c t hc0 hc1 p).2.2.1 = k0_pay7 x0 x1 p.1 := by
  unfold at0_C
  dsimp only
  rw [← e0, ← e1]
  exact sout0_C_0_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 x0 x1 p.1 p.2
theorem at0_C_sum (c : Dev nD) (t : Fin cfg0.N) (hc0 : ¬cond0_0 (grid0.coords t)) (hc1 : cond0_1 (grid0.coords t))
    (p : Vec Ideal S1024x1 .f32 × Vec Ideal S1024x1 .f32) (x0 x1 : Vec Ideal S1024x128 .bf16) (e0 : x0 = iblk0 V c 0 t) (e1 : x1 = iblk0 V c 1 t) :
    (at0_C V c t hc0 hc1 p).2.2.2 = k0_pay6 x0 x1 p.1 p.1 p.2 := by
  unfold at0_C
  dsimp only
  rw [← e0, ← e1]
  exact sout0_C_1_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 x0 x1 p.1 p.2

/-! ## One point -/

/-- The point's score tile is the row's scores at the point's query tile. -/
theorem tile_row (c : Dev nD) (t : Fin cfg0.N) (r : Fin 1024) (x0 x1 : Vec Ideal S1024x128 .bf16) (e0 : x0 = iblk0 V c 0 t) (e1 : x1 = iblk0 V c 1 t) (cq : Fin 1024) :
    Pay.tileScore x0 x1 r cq = rowScores V c (t.val / 8) r (t.val % 8) cq := by
  subst e0 e1; exact tile_score_eq V c t r cq

/-- The first point of a key tile leaves the pair's first values. -/
theorem first_point (c : Dev nD) (t : Fin cfg0.N) (hc0 : cond0_0 (grid0.coords t)) (hc1 : ¬cond0_1 (grid0.coords t))
    (h0 : t.val % 8 = 0) (r : Fin 1024) (u : Fin 1) (x0 x1 : Vec Ideal S1024x128 .bf16) (e0 : x0 = iblk0 V c 0 t) (e1 : x1 = iblk0 V c 1 t) :
    (at0_A V c t hc0 hc1).2.2.1 (ix2 r u) = runMax (rowScores V c (t.val / 8) r) (t.val % 8)
      ∧ (at0_A V c t hc0 hc1).2.2.2 (ix2 r u) = runSum (rowScores V c (t.val / 8) r) (t.val % 8) := by
  have hrow := tile_row V c t r x0 x1 e0 e1
  rw [h0] at hrow ⊢
  rw [at0_A_max V c t hc0 hc1 x0 x1 e0 e1, at0_A_sum V c t hc0 hc1 x0 x1 e0 e1]
  exact ⟨Pay.stepA_max x0 x1 (rowScores V c (t.val / 8) r) r u hrow, Pay.stepA_sum x0 x1 (rowScores V c (t.val / 8) r) r u hrow⟩

/-- A middle point moves the pair from its values after tile j to those after tile j + 1. -/
theorem middle_point (c : Dev nD) (t : Fin cfg0.N) (hc0 : ¬cond0_0 (grid0.coords t)) (hc1 : ¬cond0_1 (grid0.coords t))
    (p : Vec Ideal S1024x1 .f32 × Vec Ideal S1024x1 .f32) (j : ℕ) (hj : t.val % 8 = j + 1) (r : Fin 1024) (u : Fin 1)
    (ih0 : p.1 (ix2 r u) = runMax (rowScores V c (t.val / 8) r) j) (ih1 : p.2 (ix2 r u) = runSum (rowScores V c (t.val / 8) r) j)
    (x0 x1 : Vec Ideal S1024x128 .bf16) (e0 : x0 = iblk0 V c 0 t) (e1 : x1 = iblk0 V c 1 t) :
    (at0_B V c t hc0 hc1 p).2.2.1 (ix2 r u) = runMax (rowScores V c (t.val / 8) r) (t.val % 8)
      ∧ (at0_B V c t hc0 hc1 p).2.2.2 (ix2 r u) = runSum (rowScores V c (t.val / 8) r) (t.val % 8) := by
  have hrow := tile_row V c t r x0 x1 e0 e1
  rw [hj] at hrow ⊢
  rw [at0_B_max V c t hc0 hc1 p x0 x1 e0 e1, at0_B_sum V c t hc0 hc1 p x0 x1 e0 e1]
  exact ⟨Pay.stepB_max x0 x1 (rowScores V c (t.val / 8) r) r u p.1 j hrow ih0,
    Pay.stepB_sum x0 x1 (rowScores V c (t.val / 8) r) r u p.1 p.2 j hrow ih0 ih1⟩

/-- So does the last point of a key tile. -/
theorem last_point (c : Dev nD) (t : Fin cfg0.N) (hc0 : ¬cond0_0 (grid0.coords t)) (hc1 : cond0_1 (grid0.coords t))
    (p : Vec Ideal S1024x1 .f32 × Vec Ideal S1024x1 .f32) (j : ℕ) (hj : t.val % 8 = j + 1) (r : Fin 1024) (u : Fin 1)
    (ih0 : p.1 (ix2 r u) = runMax (rowScores V c (t.val / 8) r) j) (ih1 : p.2 (ix2 r u) = runSum (rowScores V c (t.val / 8) r) j)
    (x0 x1 : Vec Ideal S1024x128 .bf16) (e0 : x0 = iblk0 V c 0 t) (e1 : x1 = iblk0 V c 1 t) :
    (at0_C V c t hc0 hc1 p).2.2.1 (ix2 r u) = runMax (rowScores V c (t.val / 8) r) (t.val % 8)
      ∧ (at0_C V c t hc0 hc1 p).2.2.2 (ix2 r u) = runSum (rowScores V c (t.val / 8) r) (t.val % 8) := by
  have hrow := tile_row V c t r x0 x1 e0 e1
  rw [hj] at hrow ⊢
  rw [at0_C_max V c t hc0 hc1 p x0 x1 e0 e1, at0_C_sum V c t hc0 hc1 p x0 x1 e0 e1]
  exact ⟨Pay.stepB_max x0 x1 (rowScores V c (t.val / 8) r) r u p.1 j hrow ih0,
    Pay.stepB_sum x0 x1 (rowScores V c (t.val / 8) r) r u p.1 p.2 j hrow ih0 ih1⟩

/-! ## The chain -/

/-- THE RUNNING PAIR AFTER EVERY POINT. -/
theorem chain0 (c : Dev nD) : ∀ (n : ℕ) (hn : n < cfg0.N) (r : Fin 1024) (u : Fin 1),
    (outsAt0 V c n hn).2.2.1 (ix2 r u) = runMax (rowScores V c (n / 8) r) (n % 8)
      ∧ (outsAt0 V c n hn).2.2.2 (ix2 r u) = runSum (rowScores V c (n / 8) r) (n % 8) := by
  intro n
  induction n with
  | zero =>
    intro hn r u
    exact first_point V c ⟨0, hn⟩ ((hcond0_0 ⟨0, hn⟩).mpr (Nat.zero_mod _))
      (fun h => by have := (hcond0_1 ⟨0, hn⟩).mp h; simp at this) (Nat.zero_mod _) r u
      (iblk0 V c 0 ⟨0, hn⟩) (iblk0 V c 1 ⟨0, hn⟩) rfl rfl
  | succ n ih =>
    intro hn r u
    by_cases h0 : (n + 1) % 8 = 0
    · have e : outsAt0 V c (n + 1) hn = at0_A V c ⟨n + 1, hn⟩ ((hcond0_0 ⟨n + 1, hn⟩).mpr h0)
          (fun h => by have := (hcond0_1 ⟨n + 1, hn⟩).mp h; dsimp only at this; omega) := (dif_pos h0).trans rfl
      rw [e]
      exact first_point V c ⟨n + 1, hn⟩ _ _ h0 r u (iblk0 V c 0 ⟨n + 1, hn⟩) (iblk0 V c 1 ⟨n + 1, hn⟩) rfl rfl
    · obtain ⟨j, hj⟩ : ∃ j, (n + 1) % 8 = j + 1 := ⟨(n + 1) % 8 - 1, by omega⟩
      have hd : n / 8 = (n + 1) / 8 := by omega
      have hm : n % 8 = j := by omega
      have ihn := ih (Nat.lt_of_succ_lt hn) r u
      rw [hd, hm] at ihn
      by_cases h1 : (n + 1) % 8 = 7
      · have e : outsAt0 V c (n + 1) hn = at0_C V c ⟨n + 1, hn⟩ (fun h => h0 ((hcond0_0 ⟨n + 1, hn⟩).mp h))
            ((hcond0_1 ⟨n + 1, hn⟩).mpr h1) (outsAt0 V c n (Nat.lt_of_succ_lt hn)).2.2 :=
          (dif_neg h0).trans ((dif_pos h1).trans rfl)
        rw [e]
        exact last_point V c ⟨n + 1, hn⟩ _ _ (outsAt0 V c n (Nat.lt_of_succ_lt hn)).2.2 j hj r u ihn.1 ihn.2
          (iblk0 V c 0 ⟨n + 1, hn⟩) (iblk0 V c 1 ⟨n + 1, hn⟩) rfl rfl
      · have e : outsAt0 V c (n + 1) hn = at0_B V c ⟨n + 1, hn⟩ (fun h => h0 ((hcond0_0 ⟨n + 1, hn⟩).mp h))
            (fun h => h1 ((hcond0_1 ⟨n + 1, hn⟩).mp h)) (outsAt0 V c n (Nat.lt_of_succ_lt hn)).2.2 :=
          (dif_neg h0).trans ((dif_neg h1).trans rfl)
        rw [e]
        exact middle_point V c ⟨n + 1, hn⟩ _ _ (outsAt0 V c n (Nat.lt_of_succ_lt hn)).2.2 j hj r u ihn.1 ihn.2
          (iblk0 V c 0 ⟨n + 1, hn⟩) (iblk0 V c 1 ⟨n + 1, hn⟩) rfl rfl

/-- The running maximum after point t, at row r. -/
theorem chain0_max (c : Dev nD) (t : Fin cfg0.N) (r : Fin 1024) (u : Fin 1) :
    (outsAt0 V c t.val t.isLt).2.2.1 (ix2 r u)
      = ColSoftmax.runMax (fun j cq => ColSoftmax.scoreT (qArr V c) (kArr V c) (ColSoftmax.pos (t.val / 8) r) (ColSoftmax.pos j cq)) (t.val % 8) :=
  (chain0 V c t.val t.isLt r u).1

/-- The running total after point t, at row r. -/
theorem chain0_sum (c : Dev nD) (t : Fin cfg0.N) (r : Fin 1024) (u : Fin 1) :
    (outsAt0 V c t.val t.isLt).2.2.2 (ix2 r u)
      = ColSoftmax.runSum (fun j cq => ColSoftmax.scoreT (qArr V c) (kArr V c) (ColSoftmax.pos (t.val / 8) r) (ColSoftmax.pos j cq)) (t.val % 8) :=
  (chain0 V c t.val t.isLt r u).2

end Cert.KernelIdeal.Val

end
-- ==== Proof.Val.ArraysLse0.lean ====
/-
  The log-sum-exp row after the statistics pass, entry by entry.

  The pass writes the row back one block of 1024 keys at a time, at the last query tile of each key tile's row of
  the grid; what it writes there is the running maximum plus the logarithm of the running total, both as the eighth
  query tile leaves them. So entry m of the row is key m's log-sum-exp down its column of scores.
-/
import proofs.«107496_j36386962931993_2_alg».proof.Proof.Val.Chain0
import proofs.«107496_j36386962931993_2_alg».proof.Proof.Val.Pay0

set_option maxRecDepth 16384

noncomputable section

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The log-sum-exp row as one function of the arrays the region finds. -/
def lseG (c : Dev nD) : S1x8192.Idx → EReal := fun i => ColSoftmax.lse (qArr V c) (kArr V c) (i 1)

theorem lseG_apply (c : Dev nD) (mk : Fin 8192) :
    lseG V c (ix2 (0 : Fin 1) mk) = ColSoftmax.lse (qArr V c) (kArr V c) mk := rfl

/-- The log-sum-exp window's block index at point t = 8·i + j is (0, i). -/
theorem idx0_2 : ∀ t : Fin cfg0.N, win0_2.index t (0 : Fin 2) = 0 ∧ win0_2.index t (1 : Fin 2) = t.val / 8 :=
  (by decide +kernel : ∀ t : Fin grid0.N, _)

/-- The block the last query tile of a row stores, as the body's arithmetic on the point's blocks `x0`, `x1` and the
    running pair `p` the point before left. -/
theorem at0_C_lse (c : Dev nD) (t : Fin cfg0.N) (hc0 : ¬cond0_0 (grid0.coords t)) (hc1 : cond0_1 (grid0.coords t))
    (p : Vec Ideal S1024x1 .f32 × Vec Ideal S1024x1 .f32) (x0 x1 : Vec Ideal S1024x128 .bf16) (e0 : x0 = iblk0 V c 0 t) (e1 : x1 = iblk0 V c 1 t) :
    (at0_C V c t hc0 hc1 p).1 = k0_pay1 (F := Ideal) (k0_pay7 x0 x1 p.1) (k0_pay6 x0 x1 p.1 p.1 p.2) := by
  unfold at0_C
  dsimp only
  rw [← e0, ← e1]
  exact out0_C_2_eq (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 x0 x1 p.1 p.2

/-- At the last query tile of a row the log-sum-exp block is the running maximum plus the logarithm of the running
    total, both as this point leaves them. -/
theorem lse_block (c : Dev nD) (t : Fin cfg0.N) (h1 : t.val % 8 = 7) :
    (outsAt0 V c t.val t.isLt).1
      = k0_pay1 (F := Ideal) (outsAt0 V c t.val t.isLt).2.2.1 (outsAt0 V c t.val t.isLt).2.2.2 := by
  have h0 : ¬t.val % 8 = 0 := by omega
  have hc0 : ¬cond0_0 (grid0.coords t) := fun h => h0 ((hcond0_0 t).mp h)
  have hc1 : cond0_1 (grid0.coords t) := (hcond0_1 t).mpr h1
  have e := outsAt0_C V c t h0 h1 hc0 hc1
  generalize (outsAt0 V c (t.val - 1) (Nat.lt_of_le_of_lt (Nat.sub_le _ _) t.isLt)).2.2 = p at e
  generalize hx0 : (iblk0 V c 0 t : Vec Ideal S1024x128 .bf16) = x0
  generalize hx1 : (iblk0 V c 1 t : Vec Ideal S1024x128 .bf16) = x1
  have e1 := (congrArg (fun x => x.1) e).trans (at0_C_lse V c t hc0 hc1 p x0 x1 hx0.symm hx1.symm)
  have e2 := (congrArg (fun x => x.2.2.1) e).trans (at0_C_max V c t hc0 hc1 p x0 x1 hx0.symm hx1.symm)
  have e3 := (congrArg (fun x => x.2.2.2) e).trans (at0_C_sum V c t hc0 hc1 p x0 x1 hx0.symm hx1.symm)
  exact e1.trans (congrArg₂ (k0_pay1 (F := Ideal)) e2 e3).symm

/-- An entry of the row lies in point `t`'s block iff each coordinate lies in the block's range. -/
theorem mem_blk0_2 (t : Fin cfg0.N) (i : S1x8192.Idx) :
    i ∈ ((cfg0.win 2).blk t).view.set ↔ ∀ a : Fin 2, win0_2.index t a * S1x1024.size a ≤ (i a).val ∧ (i a).val < win0_2.index t a * S1x1024.size a + S1x1024.size a := by
  show i ∈ ((View.whole main_v3_0).slice (win0_2.rect t)).set ↔ _
  rw [View.set_slice_whole, Rect.mem_set_unit]
  exact Iff.rfl

/-- Every entry of the row is written back: key m by the last point of the row of key tile m / 1024. -/
theorem cover0_2 (i : S1x8192.Idx) : ∃ t : Fin cfg0.N, (cfg0.win 2).flush t = true ∧ i ∈ ((cfg0.win 2).blk t).view.set := by
  have hi0 : (i 0).val < 1 := idx2_lt0 i
  have hi1 : (i 1).val < 8192 := idx2_lt1 i
  have hlt : 8 * ((i 1).val / 1024) + 7 < cfg0.N := Nat.lt_of_lt_of_eq (by omega : 8 * ((i 1).val / 1024) + 7 < 64) (show 64 = cfg0.N from N_0.symm)
  obtain ⟨e0, e1⟩ := idx0_2 ⟨8 * ((i 1).val / 1024) + 7, hlt⟩
  refine ⟨⟨8 * ((i 1).val / 1024) + 7, hlt⟩, (flush0_2 _).mpr (by show (8 * ((i 1).val / 1024) + 7) % 8 = 7; omega), ?_⟩
  rw [mem_blk0_2]
  intro a
  match a with
  | ⟨0, _⟩ =>
    show win0_2.index ⟨8 * ((i 1).val / 1024) + 7, hlt⟩ 0 * 1 ≤ (i 0).val ∧ (i 0).val < win0_2.index ⟨8 * ((i 1).val / 1024) + 7, hlt⟩ 0 * 1 + 1
    rw [e0]; omega
  | ⟨1, _⟩ =>
    show win0_2.index ⟨8 * ((i 1).val / 1024) + 7, hlt⟩ 1 * 1024 ≤ (i 1).val ∧ (i 1).val < win0_2.index ⟨8 * ((i 1).val / 1024) + 7, hlt⟩ 1 * 1024 + 1024
    rw [e1]; show (8 * ((i 1).val / 1024) + 7) / 8 * 1024 ≤ (i 1).val ∧ (i 1).val < (8 * ((i 1).val / 1024) + 7) / 8 * 1024 + 1024; omega

/-- What a point at the end of a row writes back is its block of the log-sum-exp row. -/
theorem flushed0_2_eq (c : Dev nD) (t : Fin cfg0.N) (hf : (cfg0.win 2).flush t = true) :
    (dat0 V c).flushed 2 t = ((cfg0.win 2).blk t).view.read (Elt Ideal) (lseG V c) := by
  have h7 : t.val % 8 = 7 := (flush0_2 t).mp hf
  obtain ⟨e0, e1⟩ := idx0_2 t
  have ht := point_lt t
  show (cfg0.win 2).cut (grid0.coords t) ((dat0 V c).after 2 t) = _
  rw [after0_2, lse_block V c t h7]
  funext j
  obtain ⟨u, r, rfl⟩ : ∃ (u : Fin 1) (r : Fin 1024), j = ix2 u r := ⟨j 0, j 1, eq_ix2 j⟩
  rw [View.read_apply]
  show k0_pay1 (F := Ideal) (outsAt0 V c t.val t.isLt).2.2.1 (outsAt0 V c t.val t.isLt).2.2.2 (ix2 u r) = lseG V c (((cfg0.win 2).blk t).view.emb (ix2 u r))
  rw [pay1_apply, chain0_max V c t r 0, chain0_sum V c t r 0, h7]
  have hemb : ((cfg0.win 2).blk t).view.emb (ix2 u r) = (ix2 (0 : Fin 1) (ColSoftmax.pos (t.val / 8) r) : S1x8192.Idx) := by
    funext a; apply Fin.ext
    match a with
    | ⟨0, _⟩ => show win0_2.index t 0 * 1 + 1 * u.val = 0; rw [e0]; have := u.isLt; omega
    | ⟨1, _⟩ => show win0_2.index t 1 * 1024 + 1 * r.val = 1024 * (t.val / 8 % 8) + r.val; rw [e1]; omega
  rw [hemb]
  rfl

/-- THE LOG-SUM-EXP ROW after the region: entry m is key m's log-sum-exp down its column. -/
theorem lseArr (c : Dev nD) (mk : Fin 8192) :
    (dat0 V c).arrAt 2 cfg0.N (ix2 (0 : Fin 1) mk) = ColSoftmax.lse (qArr V c) (kArr V c) mk :=
  (congrFun ((dat0 V c).arrAt_eq_of_cover 2 (lseG V c) (fun t hf => flushed0_2_eq V c t hf) cover0_2) (ix2 (0 : Fin 1) mk)).trans (lseG_apply V c mk)

end Cert.KernelIdeal.Val

end
-- ==== Proof.KI.R1Pieces.lean ====
/-
  What each case of the output pass leaves, as arithmetic on the point's blocks: at the first key tile of a row the
  accumulator is the tile's contribution over zero, at every other key tile the contribution over what the tile
  before left, and at the last key tile the output block is the finished accumulator.
-/
import proofs.«107496_j36386962931993_2_alg».proof.Proof.KI.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's loads and stores all start at the origin of their buffers. -/
theorem off1_zero2 : (![0, 0] : Fin 2 → ℕ) = fun _ => 0 := by funext a; fin_cases a <;> rfl

/-- At the first key tile the accumulator ends at the tile's contribution added to zero. -/
theorem sout1_A_0_eq (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : cond1_0 i) (hc1 : ¬cond1_1 i)
    (x0 : Vec F S1024x1024 .bf16) (x1 : Vec F S1024x128 .bf16) (x2 : Vec F S1x1024 .f32) :
    sout1_A_0 c i arg2 harg2 arg3 harg3 arg4 harg4 arg5 harg5 arg6 harg6 hc0 hc1 x0 x1 x2 = k1_pay2 x0 x2 (k1_pay1 (F := F)) x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero off1_zero2]
  simp only [View.readAt_eq_ld, harg2.read_unread, harg3.read_unread, harg4.read_unread, harg6.read_unread, View.ld_unit_zero (S := S1024x1024) off1_zero2, View.ld_unit_zero (S := S1024x128) off1_zero2, View.ld_unit_zero (S := S1x1024) off1_zero2]
  rw [View.readCov_unit_zero _ off1_zero2]

/-- Strictly inside a row the accumulator ends at the tile's contribution added to what the tile before left. -/
theorem sout1_B_0_eq (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : ¬cond1_1 i)
    (x0 : Vec F S1024x1024 .bf16) (x1 : Vec F S1024x128 .bf16) (x2 : Vec F S1x1024 .f32) (xs0 : Vec F S1024x128 .f32) :
    sout1_B_0 c i arg2 harg2 arg3 harg3 arg4 harg4 arg5 harg5 arg6 harg6 hc0 hc1 x0 x1 x2 xs0 = k1_pay2 x0 x2 xs0 x1 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero off1_zero2]
  simp only [View.readAt_eq_ld, harg2.read_unread, harg3.read_unread, harg4.read_unread, harg6.read_unread, View.ld_unit_zero (S := S1024x1024) off1_zero2, View.ld_unit_zero (S := S1024x128) off1_zero2, View.ld_unit_zero (S := S1x1024) off1_zero2]

/-- At the last key tile likewise. -/
theorem sout1_C_0_eq (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) :
    sout1_C_0 c i arg2 harg2 arg3 harg3 arg4 harg4 arg5 harg5 arg6 harg6 hc0 hc1 x0 x1 x2 xs0 = k1_pay2 x0 x2 xs0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero off1_zero2]
  simp only [View.readAt_eq_ld, harg2.read_unread, harg3.read_unread, harg4.read_unread, harg6.read_unread, View.ld_unit_zero (S := S1024x1024) off1_zero2, View.ld_unit_zero (S := S1024x128) off1_zero2, View.ld_unit_zero (S := S1x1024) off1_zero2]

/-- At the last key tile the output block is the finished accumulator, as arithmetic. -/
theorem out1_C_3_pay (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) :
    out1_C_3 c i arg2 harg2 arg3 harg3 arg4 harg4 arg5 harg5 arg6 harg6 hc0 hc1 x0 x1 x2 xs0 = k1_pay2 x0 x2 xs0 x1 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero off1_zero2]
  rw [View.readCov_unit_zero _ off1_zero2]
  simp only [View.readAt_eq_ld, harg2.read_unread, harg3.read_unread, harg4.read_unread, harg6.read_unread, View.ld_unit_zero (S := S1024x1024) off1_zero2, View.ld_unit_zero (S := S1024x128) off1_zero2, View.ld_unit_zero (S := S1x1024) off1_zero2]

/-- At the last key tile the output block is what the accumulator ends at. -/
theorem out1_C_3_eq (c : Dev nD) (i : grid1.Coords) (arg2 : Memref sig .tc .vmem S1024x1024 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1024x128 .f32) (harg5 : arg5.IsWhole) (arg6 : Memref sig .tc .vmem S1024x128 .f32) (harg6 : arg6.IsWhole) (hc0 : ¬cond1_0 i) (hc1 : cond1_1 i)
    (x0 : Vec F S1024x1024 .bf16) (x1 : Vec F S1024x128 .bf16) (x2 : Vec F S1x1024 .f32) (xs0 : Vec F S1024x128 .f32) :
    out1_C_3 c i arg2 harg2 arg3 harg3 arg4 harg4 arg5 harg5 arg6 harg6 hc0 hc1 x0 x1 x2 xs0 = sout1_C_0 c i arg2 harg2 arg3 harg3 arg4 harg4 arg5 harg5 arg6 harg6 hc0 hc1 x0 x1 x2 xs0 :=
  (out1_C_3_pay c i arg2 harg2 arg3 harg3 arg4 harg4 arg5 harg5 arg6 harg6 hc0 hc1 x0 x1 x2 xs0).trans (sout1_C_0_eq c i arg2 harg2 arg3 harg3 arg4 harg4 arg5 harg5 arg6 harg6 hc0 hc1 x0 x1 x2 xs0).symm

end Cert.KernelIdeal.Hand

end
-- ==== Proof.KI.R1Acc.lean ====
/-
  The accumulator along a row, point by point: at the first key tile the tile's contribution over zero; at every
  other key tile the tile's contribution over what the point before left; and at the last key tile the output
  block's buffer holds the accumulator.
-/
import proofs.«107496_j36386962931993_2_alg».proof.Proof.KI.R1Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- At the first key tile of a row the accumulator is the tile's contribution added to zero. -/
theorem acc1_first (c : Dev nD) (t : Fin cfg1.N) (h0 : t.val % 8 = 0) :
    (outsAt1 V c t.val t.isLt).2 = k1_pay2 (iblk1 V c 0 t) (iblk1 V c 2 t) (k1_pay1 (F := F)) (iblk1 V c 1 t) := by
  have h1 : ¬t.val % 8 = 7 := by omega
  rw [outsAt1_A V c t h0 h1]; dsimp only
  exact sout1_A_0_eq c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)

/-- At any other key tile it is the tile's contribution added to what the point before left. -/
theorem acc1_next (c : Dev nD) (t : Fin cfg1.N) (h0 : ¬t.val % 8 = 0) :
    (outsAt1 V c t.val t.isLt).2 = k1_pay2 (iblk1 V c 0 t) (iblk1 V c 2 t) (outsAt1 V c (t.val - 1) (Nat.lt_of_le_of_lt (Nat.sub_le _ _) t.isLt)).2 (iblk1 V c 1 t) := by
  by_cases h1 : t.val % 8 = 7
  · rw [outsAt1_C V c t h0 h1]; dsimp only
    exact sout1_C_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2
  · rw [outsAt1_B V c t h0 h1]; dsimp only
    exact sout1_B_0_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2

/-- At the last key tile of a row the output block's buffer holds the accumulator. -/
theorem out1_last (c : Dev nD) (t : Fin cfg1.N) (h1 : t.val % 8 = 7) :
    (outsAt1 V c t.val t.isLt).1 = (outsAt1 V c t.val t.isLt).2 := by
  have h0 : ¬t.val % 8 = 0 := by omega
  rw [outsAt1_C V c t h0 h1]; dsimp only
  exact out1_C_3_eq c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2

end Region1

end Cert.KernelIdeal.Hand

end
-- ==== Proof.Val.Pay1.lean ====
/-
  The second kernel body's accumulation, read at an index: the accumulator's entry (query r, feature d) grows by the
  sum over the tile's keys c of exp (cached score (r, c) - log-sum-exp of key c) times the value tile's entry (c, d).
-/
import proofs.«107496_j36386962931993_2_alg».proof.Proof.Gen.KernelIdeal.Skeleton
import proofs.«107496_j36386962931993_2_alg».proof.Proof.LibRowMax
import proofs.«107496_j36386962931993_2_alg».proof.Proof.LibKeepdims
import proofs.«107496_j36386962931993_2_alg».proof.Proof.Val.PayConst
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.Pay

open Cert.KernelIdeal Cert.KernelIdeal.Gen Idealize.ShloMosaic Idealize.ShloMosaic.ValueIdx

/-- The left operand's row is the output's row. -/
theorem lhs_out_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
/-- The left operand's column is the contraction coordinate. -/
theorem lhs_out_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
/-- The right operand's row is the contraction coordinate. -/
theorem rhs_out_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
/-- The right operand's column is the output's column. -/
theorem rhs_out_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- The updated accumulator at (r, d): the old entry plus the sum over the keys c of the tile of
    exp (score (r, c) - log-sum-exp (c)) * V[c, d]. -/
theorem k1_pay2_apply (sb : Vec Ideal S1024x1024 .bf16) (ls : Vec Ideal S1x1024 .f32) (ac : Vec Ideal S1024x128 .f32)
    (vb : Vec Ideal S1024x128 .bf16) (r : Fin 1024) (d : Fin 128) :
    k1_pay2 (F := Ideal) sb ls ac vb (ix2 r d)
      = ac (ix2 r d) + ∑ c : Fin 1024, Ideal.exp (sb (ix2 r c) - ls (ix2 (0 : Fin 1) c)) * vb (ix2 c d) := by
  unfold k1_pay2
  simp only [shapeCast_self]
  refine (addf_apply _ _ _).trans ?_
  refine congrArg (ac (ix2 r d) + ·) ?_
  refine (Ideal.matmul_constant_zero_apply dot_S1024x1024_S1024x128_S1024x128_1_0_0_1_n_n none
    (truncf .bf16 (exp (subf (extf .f32 sb bitsLt_bf16_f32) (broadcastTo S1024x1024 ls broadcasts_S1x1024_S1024x1024))) bitsLt_bf16_f32)
    vb (ix2 r d)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r d) ((contrEquiv1 dot_S1024x1024_S1024x128_S1024x128_1_0_0_1_n_n 1024 rfl rfl).symm k) = ix2 r k :=
    funext fun a => Fin.ext (by
      match a with
      | ⟨0, _⟩ => exact lhs_out_0 _ _
      | ⟨1, _⟩ => exact (lhs_out_1 _ _).trans hk)
  have er : dot_S1024x1024_S1024x128_S1024x128_1_0_0_1_n_n.rhsIdx (ix2 r d) ((contrEquiv1 dot_S1024x1024_S1024x128_S1024x128_1_0_0_1_n_n 1024 rfl rfl).symm k) = ix2 k d :=
    funext fun a => Fin.ext (by
      match a with
      | ⟨0, _⟩ => exact (rhs_out_0 _ _).trans hk
      | ⟨1, _⟩ => exact rhs_out_1 _ _)
  rw [el, er]
  refine congrArg (· * vb (ix2 k d)) ?_
  show Ideal.exp (sb (ix2 r k) - broadcastTo S1024x1024 ls broadcasts_S1x1024_S1024x1024 (ix2 r k)) = _
  rw [broadcastTo_1b_ab_apply]

end Cert.KernelIdeal.Pay

end
-- ==== Proof.Val.Blocks1.lean ====
/-
  The output pass's input blocks, entry by entry.

  At grid point t = 8·i + j the pass works on query tile i and key tile j. Its first window is block (i, j) of the
  cached score table, whose entry (r, c) is the table's entry at query 1024·i + r and key 1024·j + c; its second is key
  tile j of the value array, whose entry (c, d) is the array's entry (1024·j + c, d); its third is block j of the
  log-sum-exp row, whose entry c is the row's entry 1024·j + c.
-/
import proofs.«107496_j36386962931993_2_alg».proof.Proof.KI.R1Frame
import proofs.«107496_j36386962931993_2_alg».proof.Proof.Ref.Spec
import Idealize.ShloMosaic.Lib.ValueIdx
import Idealize.ShloMosaic.Lib.Pipeline.Value

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem

variable (V : (c : Dev nD) → (b : Ref sig .tc) → Buf (Elt Ideal) ((c : Thread nD τ).loc b))

/-- The grid has 64 points. -/
theorem lt64 (t : Fin cfg1.N) : t.val < 64 :=
  Nat.lt_of_lt_of_eq t.isLt (show cfg1.N = 64 from N_1)

/-- The four windows' block indices at point t = 8·i + j: (i, j), (j, 0), (0, j) and (i, 0). -/
theorem idx1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = 0 :=
  (by decide +kernel : ∀ t : Fin grid1.N, _)

/-- The cached score block at point t: entry (r, c) is the table's entry at query 1024·(t/8) + r, key 1024·(t%8) + c. -/
theorem iblk1_0_apply (c : Dev nD) (t : Fin cfg1.N) (r cq : Fin 1024) :
    (iblk1 V c 0 t : Vec Ideal S1024x1024 .bf16) (ix2 r cq)
      = (V c main_v3_1 : S8192x8192.Idx → EReal) (ix2 (ColSoftmax.pos (t.val / 8) r) (ColSoftmax.pos (t.val % 8) cq)) := by
  obtain ⟨e0, e1, -⟩ := idx1 t
  have ht := lt64 t
  unfold iblk1
  rw [View.read_apply]
  show V c main_v3_1 _ = V c main_v3_1 _
  congr 1
  funext a
  apply Fin.ext
  match a with
  | ⟨0, _⟩ => show win1_0.index t 0 * 1024 + 1 * r.val = 1024 * (t.val / 8 % 8) + r.val; rw [e0]; omega
  | ⟨1, _⟩ => show win1_0.index t 1 * 1024 + 1 * cq.val = 1024 * (t.val % 8 % 8) + cq.val; rw [e1]; omega

/-- The value tile at point t: entry (c, d) is the value array's entry (1024·(t%8) + c, d). -/
theorem iblk1_1_apply (c : Dev nD) (t : Fin cfg1.N) (cq : Fin 1024) (d : Fin 128) :
    (iblk1 V c 1 t : Vec Ideal S1024x128 .bf16) (ix2 cq d)
      = (V c main_v2 : S8192x128.Idx → EReal) (ix2 (ColSoftmax.pos (t.val % 8) cq) d) := by
  obtain ⟨-, -, e0, e1, -⟩ := idx1 t
  have ht := lt64 t
  unfold iblk1
  rw [View.read_apply]
  show V c main_v2 _ = V c main_v2 _
  congr 1
  funext a
  apply Fin.ext
  match a with
  | ⟨0, _⟩ => show win1_1.index t 0 * 1024 + 1 * cq.val = 1024 * (t.val % 8 % 8) + cq.val; rw [e0]; omega
  | ⟨1, _⟩ => show win1_1.index t 1 * 128 + 1 * d.val = d.val; rw [e1]; omega

/-- The log-sum-exp block at point t: entry c is the row's entry 1024·(t%8) + c. -/
theorem iblk1_2_apply (c : Dev nD) (t : Fin cfg1.N) (cq : Fin 1024) :
    (iblk1 V c 2 t : Vec Ideal S1x1024 .f32) (ix2 (0 : Fin 1) cq)
      = (V c main_v3_0 : S1x8192.Idx → EReal) (ix2 (0 : Fin 1) (ColSoftmax.pos (t.val % 8) cq)) := by
  obtain ⟨-, -, -, -, e0, e1, -⟩ := idx1 t
  have ht := lt64 t
  unfold iblk1
  rw [View.read_apply]
  show V c main_v3_0 _ = V c main_v3_0 _
  congr 1
  funext a
  apply Fin.ext
  match a with
  | ⟨0, _⟩ => show win1_2.index t 0 * 1 + 1 * 0 = 0; rw [e0]
  | ⟨1, _⟩ => show win1_2.index t 1 * 1024 + 1 * cq.val = 1024 * (t.val % 8 % 8) + cq.val; rw [e1]; omega

end Cert.KernelIdeal.Val

end
-- ==== Proof.Val.AccSpec.lean ====
/-
  The output pass's accumulation over any cached score table, any row of offsets and any value rows.

  For query `n` and output column `d`, key tile `j` contributes Σ_c exp (S n m − l m) · v m d over its 1024 keys
  `m = pos j c`; the accumulator starts from zero and adds one tile's contribution per step. With the table the
  statistics pass caches and the log-sum-exp row it writes, this is the tiled arrangement's accumulator.
-/
import proofs.«107496_j36386962931993_2_alg».proof.Proof.Ref.Spec

noncomputable section

namespace ColSoftmax

open Idealize.ShloMosaic

variable (S : Fin 8192 → Fin 8192 → EReal) (l : Fin 8192 → EReal) (v : Fin 8192 → Fin 128 → EReal)

/-- Key tile `j`'s contribution to output entry `(n, d)`. -/
def tileTermG (n : Fin 8192) (d : Fin 128) (j : ℕ) : EReal :=
  ∑ c : Fin 1024, Ideal.exp (S n (pos j c) - l (pos j c)) * v (pos j c) d

/-- The accumulator after key tiles 0 … j, started from zero. -/
def accG (n : Fin 8192) (d : Fin 128) : ℕ → EReal
  | 0 => 0 + tileTermG S l v n d 0
  | j + 1 => accG n d j + tileTermG S l v n d (j + 1)

/-- With the cached table the transposed scores and the offsets the log-sum-exp row, it is the tiled arrangement's. -/
theorem accG_eq_acc (q k : Fin 8192 → Fin 128 → EReal) (n : Fin 8192) (d : Fin 128) (j : ℕ) :
    accG (fun n m => scoreT q k m n) (lse q k) v n d j = acc q k v n d j := by
  induction j with
  | zero => rfl
  | succ j ih => show accG _ _ _ n d j + _ = acc q k v n d j + _; rw [ih]; rfl

end ColSoftmax

end
-- ==== Proof.Val.Chain1.lean ====
/-
  The output pass's accumulator along a row of the grid.

  At point t = 8·i + j the accumulator's entry (r, d) is the accumulation, over key tiles 0 … j, of the tiles'
  contributions to output entry (1024·i + r, d): the first key tile of a row adds its contribution to zero, every later
  one adds its contribution to what the tile before left.
-/
import proofs.«107496_j36386962931993_2_alg».proof.Proof.KI.R1Acc
import proofs.«107496_j36386962931993_2_alg».proof.Proof.Val.Pay1
import proofs.«107496_j36386962931993_2_alg».proof.Proof.Val.Blocks1
import proofs.«107496_j36386962931993_2_alg».proof.Proof.Val.AccSpec

set_option maxRecDepth 16384

noncomputable section

namespace Cert.KernelIdeal.Val

open Cert.KernelIdeal Cert.KernelIdeal.Gen Cert.KernelIdeal.Hand Cert.KernelIdeal.Pay
open Idealize.ShloMosaic Idealize.ShloMosaic.TcCoe Idealize.ShloMosaic.ValueIdx Idealize.SL.Sem

variable (V : (c : Dev nD) → (b : Ref sig .tc) → Buf (Elt Ideal) ((c : Thread nD τ).loc b))

/-! ## One step of the accumulation, entry by entry -/

/-- The body's update at point t, read at (r, d): the old entry plus key tile t%8's contribution to output entry
    (1024·(t/8) + r, d), over the cached table, the log-sum-exp row and the value rows as the pass finds them. -/
theorem pay2_step (c : Dev nD) (t : Fin cfg1.N) (prev : Vec Ideal S1024x128 .f32) (r : Fin 1024) (d : Fin 128) :
    k1_pay2 (F := Ideal) (iblk1 V c 0 t) (iblk1 V c 2 t) prev (iblk1 V c 1 t) (ix2 r d)
      = prev (ix2 r d) + ColSoftmax.tileTermG (fun n mk => V c main_v3_1 (ix2 n mk)) (fun mk => V c main_v3_0 (ix2 (0 : Fin 1) mk))
          (fun mk d => V c main_v2 (ix2 mk d)) (ColSoftmax.pos (t.val / 8) r) d (t.val % 8) := by
  refine (k1_pay2_apply (iblk1 V c 0 t) (iblk1 V c 2 t) prev (iblk1 V c 1 t) r d).trans ?_
  refine congrArg (prev (ix2 r d) + ·) ?_
  unfold ColSoftmax.tileTermG
  refine Finset.sum_congr rfl fun cq _ => ?_
  rw [iblk1_0_apply V c t r cq, iblk1_2_apply V c t cq, iblk1_1_apply V c t cq d]

/-! ## The chain -/

/-- After position n of the grid the accumulator's entry (r, d) is the accumulation over key tiles 0 … n%8 for output
    entry (1024·(n/8) + r, d). -/
theorem acc_chain (c : Dev nD) : ∀ (n : ℕ) (hn : n < cfg1.N) (r : Fin 1024) (d : Fin 128),
    (outsAt1 V c n hn).2 (ix2 r d)
      = ColSoftmax.accG (fun n mk => V c main_v3_1 (ix2 n mk)) (fun mk => V c main_v3_0 (ix2 (0 : Fin 1) mk))
          (fun mk d => V c main_v2 (ix2 mk d)) (ColSoftmax.pos (n / 8) r) d (n % 8) := by
  intro n
  induction n with
  | zero =>
    intro hn r d
    have e := acc1_first V c ⟨0, hn⟩ (Nat.zero_mod 8)
    refine (congrFun e (ix2 r d)).trans ?_
    rw [pay2_step V c ⟨0, hn⟩ _ r d, k1_pay1_apply]
    rfl
  | succ n ih =>
    intro hn r d
    by_cases h0 : (n + 1) % 8 = 0
    · have e := acc1_first V c ⟨n + 1, hn⟩ h0
      refine (congrFun e (ix2 r d)).trans ?_
      rw [pay2_step V c ⟨n + 1, hn⟩ _ r d, k1_pay1_apply]
      show 0 + ColSoftmax.tileTermG _ _ _ (ColSoftmax.pos ((n + 1) / 8) r) d ((n + 1) % 8) = ColSoftmax.accG _ _ _ (ColSoftmax.pos ((n + 1) / 8) r) d ((n + 1) % 8)
      rw [h0]
      rfl
    · have e : (outsAt1 V c (n + 1) hn).2
          = k1_pay2 (F := Ideal) (iblk1 V c 0 ⟨n + 1, hn⟩) (iblk1 V c 2 ⟨n + 1, hn⟩) (outsAt1 V c n (Nat.lt_of_succ_lt hn)).2 (iblk1 V c 1 ⟨n + 1, hn⟩) :=
        acc1_next V c ⟨n + 1, hn⟩ h0
      refine (congrFun e (ix2 r d)).trans ?_
      rw [pay2_step V c ⟨n + 1, hn⟩ _ r d, ih (Nat.lt_of_succ_lt hn) r d]
      have e1 : (n + 1) / 8 = n / 8 := by omega
      have e2 : (n + 1) % 8 = n % 8 + 1 := by omega
      show ColSoftmax.accG _ _ _ (ColSoftmax.pos (n / 8) r) d (n % 8) + ColSoftmax.tileTermG _ _ _ (ColSoftmax.pos ((n + 1) / 8) r) d ((n + 1) % 8)
        = ColSoftmax.accG _ _ _ (ColSoftmax.pos ((n + 1) / 8) r) d ((n + 1) % 8)
      rw [e2, e1]
      rfl

/-- At point t the accumulator's entry (r, d) is the accumulation over key tiles 0 … t%8 for output entry
    (1024·(t/8) + r, d). -/
theorem chain1 (c : Dev nD) (t : Fin cfg1.N) (r : Fin 1024) (d : Fin 128) :
    (outsAt1 V c t.val t.isLt).2 (ix2 r d)
      = ColSoftmax.accG (fun n mk => V c main_v3_1 (ix2 n mk)) (fun mk => V c main_v3_0 (ix2 (0 : Fin 1) mk))
          (fun mk d => V c main_v2 (ix2 mk d)) (ColSoftmax.pos (t.val / 8) r) d (t.val % 8) :=
  acc_chain V c t.val t.isLt r d

end Cert.KernelIdeal.Val

end
-- ==== Proof.Val.Arrays1.lean ====
/-
  The output array after the output pass, entry by entry.

  The pass writes the output array back one block of 1024 query rows at a time, at the last key tile of each row of
  the grid; what it writes there is the finished accumulator. So entry (n, d) of the array is the accumulation, over
  all eight key tiles, of the tiles' contributions to output entry (n, d) — computed from the score table, the
  log-sum-exp row and the value array as the pass finds them.
-/
import proofs.«107496_j36386962931993_2_alg».proof.Proof.Val.Chain1
import proofs.«107496_j36386962931993_2_alg».proof.Proof.KI.R1Acc

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The output array as one function of the arrays the region finds: entry (n, d) is the accumulation over all eight
    key tiles of the tiles' contributions to it. -/
def outG (c : Dev nD) : S8192x128.Idx → EReal := fun i =>
  ColSoftmax.accG (fun n mk => V c main_v3_1 (ix2 n mk)) (fun mk => V c main_v3_0 (ix2 (0 : Fin 1) mk)) (fun mk d => V c main_v2 (ix2 mk d)) (i 0) (i 1) 7

theorem outG_apply (c : Dev nD) (n : Fin 8192) (d : Fin 128) :
    outG V c (ix2 n d) = ColSoftmax.accG (fun n mk => V c main_v3_1 (ix2 n mk)) (fun mk => V c main_v3_0 (ix2 (0 : Fin 1) mk)) (fun mk d => V c main_v2 (ix2 mk d)) n d 7 := rfl

/-- An entry of the output array lies in point `t`'s block iff each coordinate lies in the block's range. -/
theorem mem_blk1_3 (t : Fin cfg1.N) (i : S8192x128.Idx) :
    i ∈ ((cfg1.win 3).blk t).view.set ↔ ∀ a : Fin 2, win1_3.index t a * S1024x128.size a ≤ (i a).val ∧ (i a).val < win1_3.index t a * S1024x128.size a + S1024x128.size a := by
  show i ∈ ((View.whole main_v4).slice (win1_3.rect t)).set ↔ _
  rw [View.set_slice_whole, Rect.mem_set_unit]
  exact Iff.rfl

/-- Every entry of the output array is written back: row n by the last point of the row of query tile n / 1024. -/
theorem cover1_3 (i : S8192x128.Idx) : ∃ t : Fin cfg1.N, (cfg1.win 3).flush t = true ∧ i ∈ ((cfg1.win 3).blk t).view.set := by
  have hi0 : (i 0).val < 8192 := idx2_lt0 i
  have hi1 : (i 1).val < 128 := idx2_lt1 i
  have hlt : 8 * ((i 0).val / 1024) + 7 < cfg1.N := Nat.lt_of_lt_of_eq (by omega : 8 * ((i 0).val / 1024) + 7 < 64) (show 64 = cfg1.N from N_1.symm)
  obtain ⟨-, -, -, -, -, -, e0, e1⟩ := idx1 ⟨8 * ((i 0).val / 1024) + 7, hlt⟩
  refine ⟨⟨8 * ((i 0).val / 1024) + 7, hlt⟩, (flush1_3 _).mpr (by show (8 * ((i 0).val / 1024) + 7) % 8 = 7; omega), ?_⟩
  rw [mem_blk1_3]
  intro a
  match a with
  | ⟨0, _⟩ =>
    show win1_3.index ⟨8 * ((i 0).val / 1024) + 7, hlt⟩ 0 * 1024 ≤ (i 0).val ∧ (i 0).val < win1_3.index ⟨8 * ((i 0).val / 1024) + 7, hlt⟩ 0 * 1024 + 1024
    rw [e0]; show (8 * ((i 0).val / 1024) + 7) / 8 * 1024 ≤ (i 0).val ∧ (i 0).val < (8 * ((i 0).val / 1024) + 7) / 8 * 1024 + 1024; omega
  | ⟨1, _⟩ =>
    show win1_3.index ⟨8 * ((i 0).val / 1024) + 7, hlt⟩ 1 * 128 ≤ (i 1).val ∧ (i 1).val < win1_3.index ⟨8 * ((i 0).val / 1024) + 7, hlt⟩ 1 * 128 + 128
    rw [e1]; omega

/-- What a point at the end of a row writes back is its block of that function: the block is the finished
    accumulator, whose entry (r, d) is the accumulation for query 1024·(t/8) + r. -/
theorem flushed1_3_eq (c : Dev nD) (t : Fin cfg1.N) (hf : (cfg1.win 3).flush t = true) :
    (dat1 V c).flushed 3 t = ((cfg1.win 3).blk t).view.read (Elt Ideal) (outG V c) := by
  have h7 : t.val % 8 = 7 := (flush1_3 t).mp hf
  obtain ⟨-, -, -, -, -, -, e0, e1⟩ := idx1 t
  have ht := lt64 t
  show (cfg1.win 3).cut (grid1.coords t) ((dat1 V c).after 3 t) = _
  rw [after1_3, out1_last V c t h7]
  funext j
  obtain ⟨r, d, rfl⟩ : ∃ (r : Fin 1024) (d : Fin 128), j = ix2 r d := ⟨j 0, j 1, eq_ix2 j⟩
  rw [View.read_apply]
  show (outsAt1 V c t.val t.isLt).2 (ix2 r d) = outG V c (((cfg1.win 3).blk t).view.emb (ix2 r d))
  rw [chain1 V c t r d, h7]
  have hemb : ((cfg1.win 3).blk t).view.emb (ix2 r d) = (ix2 (ColSoftmax.pos (t.val / 8) r) d : S8192x128.Idx) := by
    funext a; apply Fin.ext
    match a with
    | ⟨0, _⟩ => show win1_3.index t 0 * 1024 + 1 * r.val = 1024 * (t.val / 8 % 8) + r.val; rw [e0]; omega
    | ⟨1, _⟩ => show win1_3.index t 1 * 128 + 1 * d.val = d.val; rw [e1]; omega
  rw [hemb]
  rfl

/-- THE OUTPUT ARRAY after the region: entry (n, d) is the accumulation over all eight key tiles. -/
theorem outArr (c : Dev nD) (n : Fin 8192) (d : Fin 128) :
    (dat1 V c).arrAt 3 cfg1.N (ix2 n d) = ColSoftmax.accG (fun n mk => V c main_v3_1 (ix2 n mk)) (fun mk => V c main_v3_0 (ix2 (0 : Fin 1) mk)) (fun mk d => V c main_v2 (ix2 mk d)) n d 7 :=
  (congrFun ((dat1 V c).arrAt_eq_of_cover 3 (outG V c) (fun t hf => flushed1_3_eq V c t hf) cover1_3) (ix2 n d)).trans (outG_apply V c n d)

end Cert.KernelIdeal.Val

end
-- ==== Proof.Val.Entry.lean ====
/-
  The converted arrays are the arguments.

  Before the two passes the three arguments are converted from 32-bit floats to 16-bit ones. On the extended reals a
  change of float format is the identity, so each converted array holds exactly what its argument holds.
-/
import proofs.«107496_j36386962931993_2_alg».proof.Proof.Gen.KernelIdeal.Launch
import Idealize.ShloMosaic.Lib.StableHlo.Run
import Idealize.ShloMosaic.PureOps.Ideal

noncomputable section

namespace Cert.KernelIdeal.Val

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- The converted query array holds what the query argument holds. -/
theorem entry_v0 :
    (StableHlo.after (hostOps0 (F := Ideal)) (fun b => m ((c : Dev nD), b)) (Proc.devRef .tc main_v0) : S8192x128.Idx → EReal)
      = m ((c : Thread nD τ).loc main_arg0) := by
  after_results
  rfl

/-- The converted key array holds what the key argument holds. -/
theorem entry_v1 :
    (StableHlo.after (hostOps0 (F := Ideal)) (fun b => m ((c : Dev nD), b)) (Proc.devRef .tc main_v1) : S8192x128.Idx → EReal)
      = m ((c : Thread nD τ).loc main_arg1) := by
  after_results
  rfl

/-- The converted value array holds what the value argument holds. -/
theorem entry_v2 :
    (StableHlo.after (hostOps0 (F := Ideal)) (fun b => m ((c : Dev nD), b)) (Proc.devRef .tc main_v2) : S8192x128.Idx → EReal)
      = m ((c : Thread nD τ).loc main_arg2) := by
  after_results
  rfl

end Cert.KernelIdeal.Val

end
-- ==== Proof.Ref.OnlineReal.lean ====
/-
  The running maximum and the running rescaled total of one key's scores, when the scores are real numbers.

  Tile by tile the running pair keeps M_j, the largest score met so far, and L_j, the total of exp (score − M_j) over
  the scores met so far: when the maximum grows from M_j to M_{j+1} the old total is multiplied by exp (M_j − M_{j+1}),
  which turns every old term exp (s − M_j) into exp (s − M_{j+1}). The first step multiplies zero by exp (−∞ − M_0),
  which is zero whatever the factor. All of it is arithmetic of real numbers carried inside the extended reals.
-/
import proofs.«107496_j36386962931993_2_alg».proof.Proof.Ref.Spec

noncomputable section

namespace ColSoftmax

open Idealize.ShloMosaic

/-- A finite sum of real numbers, carried into the extended reals, is the sum of the carried numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two real numbers, carried into the extended reals, is the larger of the carried numbers. -/
theorem coe_max (a b : ℝ) : ((max a b : ℝ) : EReal) = max (a : EReal) (b : EReal) :=
  EReal.coe_strictMono.monotone.map_max

/-- The largest of finitely many real numbers, at least one, folded from −∞ in the extended reals, is a real number. -/
theorem real_fold_max {ι : Type} (s : Finset ι) (hs : s.Nonempty) (r : ι → ℝ) :
    ∃ x : ℝ, s.fold max ⊥ (fun c => (r c : EReal)) = (x : EReal) := by
  classical
  induction hs using Finset.Nonempty.cons_induction with
  | singleton a => exact ⟨r a, by rw [Finset.fold_singleton]; exact max_eq_left bot_le⟩
  | cons a s ha hs ih =>
    obtain ⟨x, hx⟩ := ih
    exact ⟨max (r a) x, by rw [Finset.fold_cons, hx, ← coe_max]⟩

section Running

variable (r : ℕ → Fin 1024 → ℝ)

/-- With real scores every tile's largest score is a real number. -/
theorem real_tileMax (j : ℕ) : ∃ x : ℝ, tileMax (fun j c => (r j c : EReal)) j = (x : EReal) :=
  real_fold_max Finset.univ Finset.univ_nonempty (r j)

/-- With real scores the running largest score is a real number at every step. -/
theorem real_runMax : ∃ M : ℕ → ℝ, ∀ j, runMax (fun j c => (r j c : EReal)) j = (M j : EReal) := by
  have h : ∀ j, ∃ x : ℝ, runMax (fun j c => (r j c : EReal)) j = (x : EReal) := by
    intro j
    induction j with
    | zero =>
      obtain ⟨x, hx⟩ := real_tileMax r 0
      exact ⟨x, by rw [runMax, hx]; exact max_eq_right bot_le⟩
    | succ j ih =>
      obtain ⟨y, hy⟩ := ih
      obtain ⟨x, hx⟩ := real_tileMax r (j + 1)
      exact ⟨max y x, by rw [runMax, hy, hx, ← coe_max]⟩
  exact ⟨fun j => (h j).choose, fun j => (h j).choose_spec⟩

/-- With real scores and M_j the running largest score, the running total after tile j is the total, over the tiles
    met so far, of exp (score − M_j). -/
theorem runSum_eq (M : ℕ → ℝ) (hM : ∀ j, runMax (fun j c => (r j c : EReal)) j = (M j : EReal)) (j : ℕ) :
    runSum (fun j c => (r j c : EReal)) j
      = ((∑ j' ∈ Finset.range (j + 1), ∑ c : Fin 1024, Real.exp (r j' c - M j) : ℝ) : EReal) := by
  induction j with
  | zero =>
    rw [runSum, mul_zero, zero_add, hM 0, Finset.sum_range_one, coe_sum]
    refine Finset.sum_congr rfl fun c _ => ?_
    rw [← EReal.coe_sub, Ideal.exp_coe]
  | succ j ih =>
    rw [runSum, ih, hM j, hM (j + 1), ← EReal.coe_sub, Ideal.exp_coe, ← EReal.coe_mul]
    have e : ∑ c : Fin 1024, Ideal.exp ((r (j + 1) c : EReal) - (M (j + 1) : EReal))
        = ((∑ c : Fin 1024, Real.exp (r (j + 1) c - M (j + 1)) : ℝ) : EReal) := by
      rw [coe_sum]
      refine Finset.sum_congr rfl fun c _ => ?_
      rw [← EReal.coe_sub, Ideal.exp_coe]
    rw [e, ← EReal.coe_add]
    refine congrArg _ ?_
    rw [Finset.sum_range_succ _ (j + 1), Finset.mul_sum]
    refine congrArg (· + _) (Finset.sum_congr rfl fun j' _ => ?_)
    rw [Finset.mul_sum]
    refine Finset.sum_congr rfl fun c _ => ?_
    rw [← Real.exp_add]
    refine congrArg _ ?_
    ring

/-- A total of exponentials over at least one tile is positive. -/
theorem runTotal_pos (x : ℝ) (j : ℕ) : 0 < ∑ j' ∈ Finset.range (j + 1), ∑ c : Fin 1024, Real.exp (r j' c - x) :=
  Finset.sum_pos (fun j' _ => Finset.sum_pos (fun c _ => Real.exp_pos _) Finset.univ_nonempty) (by simp)

end Running

/-- Taking M + log L away inside the exponential is dividing exp (· − M) by L, for real numbers and positive L. -/
theorem exp_sub_lse (x M L : ℝ) (hL : 0 < L) :
    Ideal.exp ((x : EReal) - ((M : EReal) + Ideal.log (L : EReal))) = Ideal.div (Ideal.exp ((x : EReal) - (M : EReal))) (L : EReal) := by
  rw [Ideal.log_coe, if_neg (not_le.2 hL), ← EReal.coe_add, ← EReal.coe_sub, ← EReal.coe_sub, Ideal.exp_coe, Ideal.exp_coe,
    Ideal.div_coe (ne_of_gt hL), ← EReal.coe_mul]
  refine congrArg _ ?_
  rw [show x - (M + Real.log L) = (x - M) + -Real.log L by ring, Real.exp_add, Real.exp_neg, Real.exp_log hL, one_div]

end ColSoftmax

end
-- ==== Proof.Ref.OnlineTiles.lean ====
/-
  The 8192 positions as 8 tiles of 1024.

  Every position n is offset n mod 1024 of tile n div 1024, and offset c of tile j (j < 8) is position 1024·j + c. So a
  sum over the positions is the sum over the tiles of the sums over the offsets, a bound on every position is a bound
  on every offset of every tile, and the accumulator after tile j is the total of the first j + 1 tile terms.
-/
import proofs.«107496_j36386962931993_2_alg».proof.Proof.Ref.Spec

noncomputable section

namespace ColSoftmax

open Idealize.ShloMosaic

/-- The tile and offset of a position. -/
def tiles : Fin 8192 ≃ Fin 8 × Fin 1024 where
  toFun n := (⟨n.val / 1024, by have := n.isLt; omega⟩, ⟨n.val % 1024, by omega⟩)
  invFun p := pos p.1.val p.2
  left_inv n := Fin.ext (by show 1024 * (n.val / 1024 % 8) + n.val % 1024 = n.val; have := n.isLt; omega)
  right_inv p := by
    obtain ⟨j, c⟩ := p
    have hj := j.isLt
    have hc := c.isLt
    refine Prod.ext (Fin.ext ?_) (Fin.ext ?_)
    · show (1024 * (j.val % 8) + c.val) / 1024 = j.val; omega
    · show (1024 * (j.val % 8) + c.val) % 1024 = c.val; omega

/-- Every position is an offset of one of the eight tiles. -/
theorem exists_pos (n : Fin 8192) : ∃ j, j ≤ 7 ∧ ∃ c : Fin 1024, n = pos j c :=
  ⟨(tiles n).1.val, by have := (tiles n).1.isLt; omega, (tiles n).2, (tiles.symm_apply_apply n).symm⟩

/-- A sum over the positions is the sum over the eight tiles of the sums over the offsets. -/
theorem sum_tiles {α : Type} [AddCommMonoid α] (g : Fin 8192 → α) :
    ∑ n : Fin 8192, g n = ∑ j ∈ Finset.range 8, ∑ c : Fin 1024, g (pos j c) := by
  rw [← Equiv.sum_comp tiles.symm g, Fintype.sum_prod_type, ← Fin.sum_univ_eq_sum_range (fun j => ∑ c : Fin 1024, g (pos j c)) 8]
  rfl

variable (q k v : Fin 8192 → Fin 128 → EReal)

/-- The accumulator after tile j is the total of the tile terms 0 … j. -/
theorem acc_eq_sum (n : Fin 8192) (d : Fin 128) (j : ℕ) :
    acc q k v n d j = ∑ j' ∈ Finset.range (j + 1), tileTerm q k v n d j' := by
  induction j with
  | zero => rw [acc, zero_add, Finset.sum_range_one]
  | succ j ih => rw [acc, ih, Finset.sum_range_succ _ (j + 1)]

/-- The tiled output is the sum over all keys of exp (score − lse) times the value entry. -/
theorem outTiled_eq_sum (n : Fin 8192) (d : Fin 128) :
    outTiled q k v n d = ∑ m : Fin 8192, Ideal.exp (scoreT q k m n - lse q k m) * v m d := by
  rw [outTiled, acc_eq_sum, sum_tiles]
  rfl

/-- The two ways of multiplying out a score agree. -/
theorem scoreT_eq_score (m n : Fin 8192) : scoreT q k m n = score q k n m :=
  Finset.sum_congr rfl fun d _ => mul_comm _ _

end ColSoftmax

end
-- ==== Proof.Ref.OnlineMax.lean ====
/-
  The running largest score after the eighth tile is the column's largest score.

  A bound holds for the largest score of a tile exactly when it holds for every score in the tile, for the running
  largest score after tile j exactly when it holds for every score of the tiles 0 … j, and for the column's largest
  score exactly when it holds for every score in the column. The eight tiles are the whole column, so after the eighth
  tile the two have the same upper bounds and are equal.
-/
import proofs.«107496_j36386962931993_2_alg».proof.Proof.Ref.OnlineTiles

noncomputable section

namespace ColSoftmax

section Running

variable (s : ℕ → Fin 1024 → EReal)

/-- A bound on a tile's largest score is a bound on every score of the tile. -/
theorem tileMax_le_iff (j : ℕ) (b : EReal) : tileMax s j ≤ b ↔ ∀ c, s j c ≤ b := by
  unfold tileMax
  rw [Finset.fold_max_le]
  exact ⟨fun h c => h.2 c (Finset.mem_univ c), fun h => ⟨bot_le, fun c _ => h c⟩⟩

/-- A bound on the running largest score after tile j is a bound on every score of the tiles 0 … j. -/
theorem runMax_le_iff (j : ℕ) (b : EReal) : runMax s j ≤ b ↔ ∀ j', j' ≤ j → ∀ c, s j' c ≤ b := by
  induction j with
  | zero =>
    rw [runMax, max_le_iff, tileMax_le_iff]
    exact ⟨fun h j' hj' c => by rw [Nat.le_zero.1 hj']; exact h.2 c, fun h => ⟨bot_le, h 0 (Nat.le_refl 0)⟩⟩
  | succ j ih =>
    rw [runMax, max_le_iff, ih, tileMax_le_iff]
    refine ⟨fun h j' hj' c => ?_, fun h => ⟨fun j' hj' c => h j' (Nat.le_succ_of_le hj') c, h (j + 1) (Nat.le_refl _)⟩⟩
    rcases Nat.lt_or_ge j' (j + 1) with hlt | hge
    · exact h.1 j' (Nat.le_of_lt_succ hlt) c
    · rw [Nat.le_antisymm hj' hge]; exact h.2 c

end Running

variable (q k : Fin 8192 → Fin 128 → EReal)

/-- A bound on the column's largest score is a bound on every score in the column. -/
theorem colMax_le_iff (m : Fin 8192) (b : EReal) : colMax q k m ≤ b ↔ ∀ n, score q k n m ≤ b := by
  unfold colMax
  rw [max_le_iff, Finset.fold_max_le]
  exact ⟨fun h n => h.2.2 n (Finset.mem_univ n), fun h => ⟨bot_le, bot_le, fun n _ => h n⟩⟩

/-- After the eighth tile the running largest score of key m is the largest score in column m. -/
theorem runMax_eq_colMax (m : Fin 8192) : runMax (fun j c => scoreT q k m (pos j c)) 7 = colMax q k m := by
  refine eq_of_forall_ge_iff fun b => ?_
  rw [runMax_le_iff, colMax_le_iff]
  refine ⟨fun h n => ?_, fun h j _ c => ?_⟩
  · obtain ⟨j, hj, c, rfl⟩ := exists_pos n
    rw [← scoreT_eq_score]
    exact h j hj c
  · show scoreT q k m (pos j c) ≤ b
    rw [scoreT_eq_score]
    exact h _

end ColSoftmax

end
-- ==== Proof.Ref.Online.lean ====
/-
  The tiled arrangement computes the same attention as the arrangement that normalises each key column at once.

  For real queries and keys every score is real. Fix a key m. Its running largest score after the eighth tile is the
  column's largest score M, and its running total is then L, the column total of exp (score − M), a positive real; so
  its log-sum-exp is M + log L, and exp (score − (M + log L)) = exp (score − M) / L is the entry's share of the column.
  The tiled output adds these shares times the value entries tile by tile from zero, which is the sum over all keys.
-/
import proofs.«107496_j36386962931993_2_alg».proof.Proof.Ref.OnlineReal
import proofs.«107496_j36386962931993_2_alg».proof.Proof.Ref.OnlineMax

noncomputable section

namespace ColSoftmax

open Idealize.ShloMosaic

section Real

variable (qr kr : Fin 8192 → Fin 128 → ℝ)

/-- The score of real queries and keys, as a real number. -/
def scoreR (n m : Fin 8192) : ℝ := ∑ d : Fin 128, qr n d * kr m d

/-- The score of real queries and keys is that real number. -/
theorem score_coe (n m : Fin 8192) :
    score (fun n d => (qr n d : EReal)) (fun m d => (kr m d : EReal)) n m = (scoreR qr kr n m : EReal) := by
  unfold score scoreR
  rw [coe_sum]
  exact Finset.sum_congr rfl fun d _ => (EReal.coe_mul _ _).symm

/-- For real queries and keys, exp (score − log-sum-exp of the key's column) is the entry's share of its column. -/
theorem exp_sub_lse_eq_share (m n : Fin 8192) :
    Ideal.exp (scoreT (fun n d => (qr n d : EReal)) (fun m d => (kr m d : EReal)) m n
        - lse (fun n d => (qr n d : EReal)) (fun m d => (kr m d : EReal)) m)
      = share (fun n d => (qr n d : EReal)) (fun m d => (kr m d : EReal)) n m := by
  -- key m's scores, tile by tile, as real numbers
  have hs : (fun (j : ℕ) (c : Fin 1024) => scoreT (fun n d => (qr n d : EReal)) (fun m d => (kr m d : EReal)) m (pos j c))
      = fun j c => ((scoreR qr kr (pos j c) m : ℝ) : EReal) :=
    funext fun j => funext fun c => by rw [scoreT_eq_score, score_coe]
  obtain ⟨M, hM⟩ := real_runMax (fun j c => scoreR qr kr (pos j c) m)
  have hsum := runSum_eq (fun j c => scoreR qr kr (pos j c) m) M hM 7
  have hL := runTotal_pos (fun j c => scoreR qr kr (pos j c) m) (M 7) 7
  -- the column's largest score is M
  have hmax : colMax (fun n d => (qr n d : EReal)) (fun m d => (kr m d : EReal)) m = (M 7 : EReal) := by
    rw [← runMax_eq_colMax, hs, hM]
  -- the column total is L
  have hw : ∀ n', weight (fun n d => (qr n d : EReal)) (fun m d => (kr m d : EReal)) n' m
      = ((Real.exp (scoreR qr kr n' m - M 7) : ℝ) : EReal) := fun n' => by
    unfold weight
    rw [hmax, score_coe, ← EReal.coe_sub, Ideal.exp_coe]
  have hcol : colSum (fun n d => (qr n d : EReal)) (fun m d => (kr m d : EReal)) m
      = ((∑ j' ∈ Finset.range (7 + 1), ∑ c : Fin 1024, Real.exp (scoreR qr kr (pos j' c) m - M 7) : ℝ) : EReal) := by
    unfold colSum
    rw [Finset.sum_congr rfl (fun n' _ => hw n'), ← coe_sum, sum_tiles (fun n' => Real.exp (scoreR qr kr n' m - M 7))]
  -- the key's log-sum-exp is M + log L
  have hlse : lse (fun n d => (qr n d : EReal)) (fun m d => (kr m d : EReal)) m
      = (M 7 : EReal) + Ideal.log ((∑ j' ∈ Finset.range (7 + 1), ∑ c : Fin 1024, Real.exp (scoreR qr kr (pos j' c) m - M 7) : ℝ) : EReal) := by
    unfold lse
    rw [hs, hM, hsum]
  unfold share
  rw [hcol, hw, hlse, scoreT_eq_score, score_coe]
  exact exp_sub_lse _ _ _ hL

end Real

/-- For real queries and keys the tiled arrangement's output is the attention output, entry by entry. -/
theorem outTiled_eq_out (q k v : Fin 8192 → Fin 128 → EReal) (hq : ∀ n d, ∃ x : ℝ, q n d = (x : EReal))
    (hk : ∀ m d, ∃ x : ℝ, k m d = (x : EReal)) (_hv : ∀ m d, ∃ x : ℝ, v m d = (x : EReal)) (n : Fin 8192) (d : Fin 128) :
    outTiled q k v n d = out q k v n d := by
  choose qr hqr using hq
  choose kr hkr using hk
  obtain rfl : q = fun n d => (qr n d : EReal) := funext fun n => funext fun d => hqr n d
  obtain rfl : k = fun m d => (kr m d : EReal) := funext fun m => funext fun d => hkr m d
  rw [outTiled_eq_sum]
  unfold out
  exact Finset.sum_congr rfl fun m _ => by rw [exp_sub_lse_eq_share]

end ColSoftmax

end
-- ==== Proof.Ref.Imports.lean ====
/-
  The reference's run and its read-at-an-index lemmas, gathered for the modules that state the reference's value.
-/
import proofs.«107496_j36386962931993_2_alg».proof.Proof.Gen.ReferenceIdeal.Read
-- ==== Proof.Ref.RefIsOut.lean ====
/-
  The reference computes the column softmax all at once.

  Read entry by entry, the reference's stages are: the score of query n against key m, the sum over d of Q[n,d]·K[m,d];
  the largest score in column m, from −∞, and once more against −∞; the exponential of the score less that maximum; the
  column total of these exponentials, from zero; each exponential divided by its column total; and the sum over m of
  these shares times V[m,d]. These are the definitions of the specification, one stage each.
-/
import proofs.«107496_j36386962931993_2_alg».proof.Proof.Ref.Imports
import proofs.«107496_j36386962931993_2_alg».proof.Proof.Ref.Spec

noncomputable section

namespace Cert.ReferenceIdeal.RefValue

open Cert.ReferenceIdeal Cert.ReferenceIdeal.Gen Cert.ReferenceIdeal.Read Idealize.ShloMosaic Idealize.ShloMosaic.ValueIdx

variable (x0 x1 x2 : FVec Ideal S8192x128 .f32)

/-- The query array by coordinates. -/
abbrev qOf : Fin 8192 → Fin 128 → EReal := fun n d => x0 (ix2 n d)
/-- The key array by coordinates. -/
abbrev kOf : Fin 8192 → Fin 128 → EReal := fun m d => x1 (ix2 m d)
/-- The value array by coordinates. -/
abbrev vOf : Fin 8192 → Fin 128 → EReal := fun m d => x2 (ix2 m d)

/-- The word of −∞ is −∞. -/
theorem negInf_eq_bot : Ideal.ofBits .f32 0xFF800000#32 = (⊥ : EReal) := by simp [Ideal.ofBits, Ideal.ieee]

/-- The product's entry (n, m) is the score of query n against key m. -/
theorem score_at (n m : Fin 8192) :
    val_main_v1 (F := Ideal) x0 x1 (ix2 n m) = ColSoftmax.score (qOf x0) (kOf x1) n m := by
  rw [val_main_v1_apply]
  unfold ColSoftmax.score
  refine Finset.sum_congr rfl fun d _ => ?_
  rw [val_main_v0_apply]
  have el : lidx_main_v1 (ix2 n m) d = ix2 n d := funext fun a => Fin.ext (by match a with | ⟨0, _⟩ => rfl | ⟨1, _⟩ => rfl)
  have er : idx_main_v0 (ridx_main_v1 (ix2 n m) d) = ix2 m d := funext fun a => Fin.ext (by match a with | ⟨0, _⟩ => rfl | ⟨1, _⟩ => rfl)
  rw [el, er]

/-- Column m with row n put back is the entry (n, m). -/
theorem lift_col (h : S8192x8192.Reduces [0] S8192) (m : Fin 8192) (n : Fin (S8192x8192.size 0)) :
    h.lift (ix1 m) n = ix2 (⟨n.val, n.isLt⟩ : Fin 8192) m := by
  funext c; apply Fin.ext
  match c with
  | ⟨0, _⟩ => rfl
  | ⟨1, _⟩ => rfl

/-- The column maximum's entry m is the largest score in column m, from −∞ and once more against −∞. -/
theorem colMax_at (m : Fin 8192) :
    val_main_v4 (F := Ideal) x0 x1 (ix1 m) = ColSoftmax.colMax (qOf x0) (kOf x1) m := by
  have h : S8192x8192.Reduces [0] S8192 := by decide
  rw [val_main_v4_apply, val_main_v3_apply, val_main_cst_0_apply]
  unfold val_main_v2
  rw [Host.reduce_eq_fold_single FloatOps.maximumf _ _ reducesTo_S8192x8192_S8192_d0 h h_S_, val_main_cst_apply]
  unfold ColSoftmax.colMax
  simp only [Ideal.ofBits_def, Ideal.maximumf_def, negInf_eq_bot]
  refine congrArg (max ⊥) ?_
  refine congrArg (fun f => (Finset.univ : Finset (Fin 8192)).fold max ⊥ f) (funext fun n => ?_)
  show val_main_v1 (F := Ideal) x0 x1 (h.lift (ix1 m) n) = _
  rw [lift_col h m n]
  exact score_at x0 x1 _ m

/-- The exponential's entry (n, m) is the shifted exponential of the score. -/
theorem weight_at (n m : Fin 8192) :
    val_main_v8 (F := Ideal) x0 x1 (ix2 n m) = ColSoftmax.weight (qOf x0) (kOf x1) n m := by
  rw [val_main_v8_apply, val_main_v7_apply, val_main_v6_apply, val_main_v5_apply]
  have e : idx_main_v5 (idx_main_v6 (ix2 n m)) = ix1 m := funext fun a => Fin.ext (by match a with | ⟨0, _⟩ => rfl)
  rw [e, colMax_at, score_at]
  unfold ColSoftmax.weight
  simp only [Ideal.hostUnary_exp_def, Ideal.subf_def]

/-- The column total's entry m is the sum down column m of the shifted exponentials. -/
theorem colSum_at (m : Fin 8192) :
    val_main_v9 (F := Ideal) x0 x1 (ix1 m) = ColSoftmax.colSum (qOf x0) (kOf x1) m := by
  rw [val_main_v9_apply, val_main_cst_1_apply]
  unfold ColSoftmax.colSum
  simp only [Ideal.ofBits_def, Ideal.ofBits_zero_f32, zero_add]
  refine Finset.sum_congr rfl fun n _ => ?_
  have e : idx_main_v9 (ix1 m) n = ix2 n m := funext fun a => Fin.ext (by match a with | ⟨0, _⟩ => rfl | ⟨1, _⟩ => rfl)
  rw [e, weight_at]

/-- The quotient's entry (n, m) is the entry's share of its column. -/
theorem share_at (n m : Fin 8192) :
    val_main_v12 (F := Ideal) x0 x1 (ix2 n m) = ColSoftmax.share (qOf x0) (kOf x1) n m := by
  rw [val_main_v12_apply, val_main_v11_apply, val_main_v10_apply]
  have e : idx_main_v10 (idx_main_v11 (ix2 n m)) = ix1 m := funext fun a => Fin.ext (by match a with | ⟨0, _⟩ => rfl)
  rw [e, colSum_at, weight_at]
  unfold ColSoftmax.share
  simp only [Ideal.hostDivf_def]

/-- The result's entry (n, d) is the attention output there. -/
theorem out_at (n : Fin 8192) (d : Fin 128) :
    val_main_v13 (F := Ideal) x0 x1 x2 (ix2 n d) = ColSoftmax.out (qOf x0) (kOf x1) (vOf x2) n d := by
  rw [val_main_v13_apply]
  unfold ColSoftmax.out
  refine Finset.sum_congr rfl fun m _ => ?_
  have el : lidx_main_v13 (ix2 n d) m = ix2 n m := funext fun a => Fin.ext (by match a with | ⟨0, _⟩ => rfl | ⟨1, _⟩ => rfl)
  have er : ridx_main_v13 (ix2 n d) m = ix2 m d := funext fun a => Fin.ext (by match a with | ⟨0, _⟩ => rfl | ⟨1, _⟩ => rfl)
  rw [el, er, share_at]

/-- The reference's result array, as one function of its three argument arrays: the attention output entry by entry. -/
def refOut : FVec Ideal S8192x128 .f32 := fun i => ColSoftmax.out (qOf x0) (kOf x1) (vOf x2) (i 0) (i 1)

/-- The reference's last stage is the attention output. -/
theorem val_main_v13_eq_out : val_main_v13 (F := Ideal) x0 x1 x2 = refOut x0 x1 x2 := by
  funext i
  obtain ⟨n, d, rfl⟩ : ∃ (n : Fin 8192) (d : Fin 128), i = ix2 n d := ⟨i 0, i 1, eq_ix2 i⟩
  exact out_at x0 x1 x2 n d

end Cert.ReferenceIdeal.RefValue

end
-- ==== Proof.Ref.Finite.lean ====
/-
  From the finiteness precondition to real entries.

  The precondition says of each of the three argument arrays that every entry's absolute value is below +∞, all three
  facts joined by "and". An extended real whose absolute value, the larger of x and −x, is below +∞ is neither +∞ nor
  −∞: it is a real number.
-/
import proofs.«107496_j36386962931993_2_alg».proof.Defs
import Idealize.ShloMosaic.Lib.ReduceAll
import Idealize.ShloMosaic.Lib.ValueIdx
import Idealize.ShloMosaic.Lib.Pipeline.Value
import Idealize.ShloMosaic.PureOps.Ideal.Laws

noncomputable section

namespace Cert.FiniteInputs

open Idealize.ShloMosaic Idealize.SL.Sem Idealize.ShloMosaic.ValueIdx

/-- The word of +∞ is +∞. -/
theorem posInf_eq_top : Ideal.ofBits .f32 0x7F800000#32 = (⊤ : EReal) := by simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton Cert.Pre_finite_inputs.S_.Idx := ⟨fun a b => funext fun d => d.elim0⟩

/-- One array's share of the precondition: if "every absolute value is below +∞" reduces to true, every entry is real. -/
theorem real_of_all [Cert.Pre_finite_inputs.Facts] (a : FVec Ideal Cert.Pre_finite_inputs.S8192x128 .f32)
    (init : IVec Cert.Pre_finite_inputs.S_ 1)
    (h : Host.reduce IntOp.andi (cmpf .olt (Host.absf a) (broadcastInDim Cert.Pre_finite_inputs.S8192x128 ![]
          Cert.Pre_finite_inputs.Facts.bcast_S_S8192x128 (constant (F := Ideal) Cert.Pre_finite_inputs.S_ .f32 0x7F800000#32)))
        init Cert.Pre_finite_inputs.Facts.reducesTo_S8192x128_S_d0_1 Cert.Pre_finite_inputs.Facts.h_S_ ix0 = 1#1)
    (i : Cert.Pre_finite_inputs.S8192x128.Idx) : ∃ r : ℝ, a i = (r : EReal) := by
  have e := Host.reduce_andi_all _ _ _ _ _ h i
  rw [cmpf_apply, broadcastInDim_apply _ _ _ i ix0 (fun d => d.elim0)] at e
  refine real_of_abs_lt_top (a i) ?_
  have e' : Ideal.cmp .olt (max (a i) (-(a i))) (Ideal.ofBits .f32 0x7F800000#32) = 1#1 := e
  rw [posInf_eq_top] at e'
  unfold Ideal.cmp at e'
  by_contra hn
  simp [hn] at e'

/-- Under the precondition every entry of each argument array is a real number. -/
theorem finite_of_fn [Cert.Pre_finite_inputs.Facts] (a0 a1 a2 : FVec Ideal Cert.Pre_finite_inputs.S8192x128 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨real_of_all a0 _ h0', real_of_all a1 _ h1, real_of_all a2 _ h2⟩

/-- Under the idealized kernel's precondition every entry of each of its argument arrays is a real number. -/
theorem finite_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ x : ℝ, m ((c.tc : Thread Cert.KernelIdeal.nD Cert.KernelIdeal.τ).loc Cert.KernelIdeal.main_arg0) i = (x : EReal))
    ∧ (∀ i, ∃ x : ℝ, m ((c.tc : Thread Cert.KernelIdeal.nD Cert.KernelIdeal.τ).loc Cert.KernelIdeal.main_arg1) i = (x : EReal))
    ∧ (∀ i, ∃ x : ℝ, m ((c.tc : Thread Cert.KernelIdeal.nD Cert.KernelIdeal.τ).loc Cert.KernelIdeal.main_arg2) i = (x : EReal)) :=
  finite_of_fn _ _ _ (h c)

/-- The same, entry by entry over the two coordinates: under the idealized kernel's precondition the query, key and
    value arrays read at row n, column d are real numbers. -/
theorem finite_of_pre_at [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ (n : Fin 8192) (d : Fin 128), ∃ x : ℝ,
        (m ((c.tc : Thread Cert.KernelIdeal.nD Cert.KernelIdeal.τ).loc Cert.KernelIdeal.main_arg0) : FVec Ideal Cert.KernelIdeal.S8192x128 .f32) (ix2 n d) = (x : EReal))
    ∧ (∀ (n : Fin 8192) (d : Fin 128), ∃ x : ℝ,
        (m ((c.tc : Thread Cert.KernelIdeal.nD Cert.KernelIdeal.τ).loc Cert.KernelIdeal.main_arg1) : FVec Ideal Cert.KernelIdeal.S8192x128 .f32) (ix2 n d) = (x : EReal))
    ∧ (∀ (n : Fin 8192) (d : Fin 128), ∃ x : ℝ,
        (m ((c.tc : Thread Cert.KernelIdeal.nD Cert.KernelIdeal.τ).loc Cert.KernelIdeal.main_arg2) : FVec Ideal Cert.KernelIdeal.S8192x128 .f32) (ix2 n d) = (x : EReal)) :=
  have e := finite_of_pre m h c
  ⟨fun n d => e.1 (ix2 n d), fun n d => e.2.1 (ix2 n d), fun n d => e.2.2 (ix2 n d)⟩

end Cert.FiniteInputs

end
-- ==== Proof.Val.Final.lean ====
/-
  The tiled kernel's result array is the column-softmax attention of the arguments.

  The output pass leaves, at entry (n, d), its accumulator after the eighth key tile over the cached table, the
  log-sum-exp row and the value rows it was handed. The statistics pass wrote the cached table as the transposed scores
  and the row as each key's log-sum-exp, both of the converted arguments, which on the extended reals are the
  arguments themselves. So the entry is the tiled arrangement's output, and for finite arguments that is the
  all-at-once arrangement's.
-/
import proofs.«107496_j36386962931993_2_alg».proof.Proof.KI.Main
import proofs.«107496_j36386962931993_2_alg».proof.Proof.Val.Arrays0
import proofs.«107496_j36386962931993_2_alg».proof.Proof.Val.ArraysLse0
import proofs.«107496_j36386962931993_2_alg».proof.Proof.Val.Arrays1
import proofs.«107496_j36386962931993_2_alg».proof.Proof.Val.Entry
import proofs.«107496_j36386962931993_2_alg».proof.Proof.Val.AccSpec
import proofs.«107496_j36386962931993_2_alg».proof.Proof.Ref.Online
import proofs.«107496_j36386962931993_2_alg».proof.Proof.Ref.RefIsOut
import proofs.«107496_j36386962931993_2_alg».proof.Proof.Ref.Finite
import proofs.«107496_j36386962931993_2_alg».proof.Proof.Gen.Pre_finite_inputs

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Cert.ReferenceIdeal.RefValue (qOf kOf vOf refOut)

variable (m : (ℓ : Loc nD τ sig) → Buf (Elt Ideal) ℓ)

/-- The query and key arrays the statistics pass is handed are the arguments. -/
theorem qArr_entry (c : Dev nD) : qArr (V1 m) c = qOf (m ((c : Thread nD τ).loc main_arg0)) :=
  funext fun n => funext fun d => congrFun (entry_v0 m c) (ix2 n d)
theorem kArr_entry (c : Dev nD) : kArr (V1 m) c = kOf (m ((c : Thread nD τ).loc main_arg1)) :=
  funext fun n => funext fun d => congrFun (entry_v1 m c) (ix2 n d)

/-- The table the output pass reads is the transposed scores, -/
theorem cache_entry (c : Dev nD) :
    (fun n mk => V2 m c main_v3_1 (ix2 n mk)) = fun n mk => ColSoftmax.scoreT (qOf (m ((c : Thread nD τ).loc main_arg0))) (kOf (m ((c : Thread nD τ).loc main_arg1))) mk n :=
  funext fun n => funext fun mk => by
    rw [← qArr_entry m c, ← kArr_entry m c, ← cacheArr (V1 m) c n mk]
    exact congrFun (W2_arr m c 3) (ix2 n mk)

/-- the row it reads is each key's log-sum-exp, -/
theorem lse_entry (c : Dev nD) :
    (fun mk => V2 m c main_v3_0 (ix2 (0 : Fin 1) mk)) = ColSoftmax.lse (qOf (m ((c : Thread nD τ).loc main_arg0))) (kOf (m ((c : Thread nD τ).loc main_arg1))) :=
  funext fun mk => by
    rw [← qArr_entry m c, ← kArr_entry m c, ← lseArr (V1 m) c mk]
    exact congrFun (W2_arr m c 2) (ix2 (0 : Fin 1) mk)

/-- and the value rows it reads are the third argument. -/
theorem value_entry (c : Dev nD) :
    (fun mk d => V2 m c main_v2 (ix2 mk d)) = vOf (m ((c : Thread nD τ).loc main_arg2)) :=
  funext fun mk => funext fun d => by
    have e : V2 m c main_v2 = V1 m c main_v2 := W2_of_ne m c main_v2 (by decide)
    rw [e]
    exact congrFun (entry_v2 m c) (ix2 mk d)

/-- THE RESULT: for finite arguments the result array is the column-softmax attention. -/
theorem kernel_result (hpre : Cert.Pre_KernelIdeal m) (c : Dev nD) :
    (dat1 (V2 m) c).arrAt 3 cfg1.N
      = refOut (m ((c : Thread nD τ).loc main_arg0)) (m ((c : Thread nD τ).loc main_arg1)) (m ((c : Thread nD τ).loc main_arg2)) := by
  obtain ⟨hq, hk, hv⟩ := Cert.FiniteInputs.finite_of_pre_at m hpre c
  funext idx
  obtain ⟨n, d, rfl⟩ : ∃ (n : Fin 8192) (d : Fin 128), idx = ix2 n d := ⟨idx 0, idx 1, eq_ix2 idx⟩
  rw [outArr (V2 m) c n d, cache_entry m c, lse_entry m c, value_entry m c, ColSoftmax.accG_eq_acc]
  exact ColSoftmax.outTiled_eq_out _ _ _ hq hk hv n d

end Cert.KernelIdeal.Val

end
-- ==== Proof.lean ====
/-
  The certificate: a tiled two-pass attention kernel against its reference, with the softmax taken down the query axis.

  Scores are S[n, m] = Σ_d Q[n, d]·K[m, d]. The reference takes, for each key column m, the largest score over all
  queries away, exponentiates, divides by the column total and multiplies the shares into V. The kernel first walks, for
  each tile of 1024 keys, the eight query tiles, keeping a running largest score and a running total rescaled to it, and
  ends with each key's log-sum-exp while caching the score tiles; then, for each tile of 1024 queries, it accumulates
  over the eight key tiles exp(S − lse)·V. On the extended reals exp(S − (M + log L)) = exp(S − M)/L for real S and M
  and a positive real L, which the precondition — every input finite — provides; regrouping the sums tile by tile needs
  only commutativity.

  Both programs of the kernel (word level and idealized) run to the end without a fault and leave their arguments
  unchanged: @main is three conversions and two kernel regions, each region's body run once per control case (a key or
  query tile's first, middle and last point) with the running pair, or the accumulator, carried from point to point.
  The idealization rewrote nothing.
-/
import proofs.«107496_j36386962931993_2_alg».proof.Defs
import proofs.«107496_j36386962931993_2_alg».proof.Proof.Gen.Kernel
import proofs.«107496_j36386962931993_2_alg».proof.Proof.Gen.KernelIdeal
import proofs.«107496_j36386962931993_2_alg».proof.Proof.Gen.ReferenceIdeal
import proofs.«107496_j36386962931993_2_alg».proof.Proof.Gen.Pre_finite_inputs
import proofs.«107496_j36386962931993_2_alg».proof.Proof.Gen.ReferenceIdeal.Run
import proofs.«107496_j36386962931993_2_alg».proof.Proof.Gen.ReferenceIdeal.Read
import proofs.«107496_j36386962931993_2_alg».proof.Proof.K.Main
import proofs.«107496_j36386962931993_2_alg».proof.Proof.KI.Main
import proofs.«107496_j36386962931993_2_alg».proof.Proof.Val.Final

noncomputable section

namespace Cert.Proof

open Idealize.ShloMosaic Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both idealized programs end with the column-softmax attention of
    those arguments. -/
theorem algebraic : Cert.algebraic_KernelIdeal_ReferenceIdeal := by
  intro m ρ m' ρ' hpre hagree
  refine ⟨fun c => Cert.ReferenceIdeal.RefValue.refOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Val.kernel_result m hpre c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact (Cert.ReferenceIdeal.Read.val_main_v13_eq _ _ _).trans (Cert.ReferenceIdeal.RefValue.val_main_v13_eq_out _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
